-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S2x32768x3 : Shape := ⟨3, ![2, 32768, 3]⟩
abbrev S4096 : Shape := ⟨1, ![4096]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel
  bcast_S_S2x32768x3 : S_.BroadcastsInDim S2x32768x3 (![] : Fin 0 → Fin S2x32768x3.rank)
  reducesTo_S2x32768x3_S_d0_1_2 : S2x32768x3.ReducesTo [0, 1, 2] S_

variable [Facts]

def fn {F : FTy → Type} [FloatOps F] (main_arg0 : FVec F S2x8192x3 .f32) (main_arg1 : FVec F S2x32768x3 .f32) (main_arg2 : IVec S4096 32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x32768x3 .f32 := Host.absf main_arg1
  let main_cst_0 : FVec F S_ .f32 := constant S_ .f32 0x7F800000#32
  let main_v5 : FVec F S2x32768x3 .f32 := broadcastInDim S2x32768x3 ![] bcast_S_S2x32768x3 main_cst_0
  let main_v6 : IVec S2x32768x3 1 := cmpf .olt main_v4 main_v5
  let main_c_1 : IVec S_ 1 := constantI S_ 1 1#1
  let main_v7 : IVec S_ 1 := (fun x v => Host.reduce IntOp.andi x v reducesTo_S2x32768x3_S_d0_1_2 h_S_) main_v6 main_c_1
  let main_v8 : IVec S_ 1 := andi main_v3 main_v7
  main_v8
-- ==== Kernel.lean ====
abbrev S2x8192x3 : Shape := ⟨3, ![2, 8192, 3]⟩
abbrev S2x32768x3 : Shape := ⟨3, ![2, 32768, 3]⟩
abbrev S4096 : Shape := ⟨1, ![4096]⟩
abbrev S_ : Shape := ⟨0, ![]⟩
abbrev S4096x1 : Shape := ⟨2, ![4096, 1]⟩
abbrev S2x4096x3 : Shape := ⟨3, ![2, 4096, 3]⟩
abbrev S2x3x4096 : Shape := ⟨3, ![2, 3, 4096]⟩
abbrev S2x3x32768 : Shape := ⟨3, ![2, 3, 32768]⟩
abbrev S2x4096 : Shape := ⟨2, ![2, 4096]⟩
abbrev S2x3x512 : Shape := ⟨3, ![2, 3, 512]⟩
abbrev S2x512 : Shape := ⟨2, ![2, 512]⟩
abbrev S2x1x512 : Shape := ⟨3, ![2, 1, 512]⟩
abbrev S2x512x1 : Shape := ⟨3, ![2, 512, 1]⟩
abbrev S2x1x1024 : Shape := ⟨3, ![2, 1, 1024]⟩
abbrev S2x1024 : Shape := ⟨2, ![2, 1024]⟩
abbrev S2x512x1024 : Shape := ⟨3, ![2, 512, 1024]⟩

abbrev nBuf : Space → Nat
  | .hbm => 19
  | .vmem => 5
  | .smem => 0
  | _ => 0

abbrev bufTy : (tb : Table) → Fin (tcTables nBuf tb) → BufTy
  | .hbm, ⟨0, _⟩ => ⟨S2x8192x3, .f32⟩
  | .hbm, ⟨1, _⟩ => ⟨S2x32768x3, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S2x4096x3, .f32⟩
  | .hbm, ⟨12, _⟩ => ⟨S2x3x4096, .f32⟩
  | .hbm, ⟨13, _⟩ => ⟨S2x3x32768, .f32⟩
  | .hbm, ⟨14, _⟩ => ⟨S2x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S2x3x512, .f32⟩
  | .local _ .vmem, ⟨1, _⟩ => ⟨S2x3x512, .f32⟩
  | .local _ .vmem, ⟨2, _⟩ => ⟨S2x3x32768, .f32⟩
  | .local _ .vmem, ⟨3, _⟩ => ⟨S2x512, .f32⟩
  | .local _ .vmem, ⟨4, _⟩ => ⟨S2x512, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x3x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  transposes_S2x4096x3_S2x3x4096_0_2_1 : S2x4096x3.Transposes [0, 2, 1] S2x3x4096
  transposes_S2x32768x3_S2x3x32768_0_2_1 : S2x32768x3.Transposes [0, 2, 1] S2x3x32768
  inb_S2x3x512_S2x3x512_0_0_0 : ∀ a, (![0, 0, 0] : Fin 3 → Nat) a + S2x3x512.size a ≤ S2x3x512.size a
  h_S2x3x512 : 0 < S2x3x512.numel
  shapeCasts_S2x3x512_S2x3x512 : S2x3x512.ShapeCasts S2x3x512
  inb_S2x3x32768_S2x3x32768_0_0_0 : ∀ a, (![0, 0, 0] : Fin 3 → Nat) a + S2x3x32768.size a ≤ S2x3x32768.size a
  h_S2x3x32768 : 0 < S2x3x32768.numel
  shapeCasts_S2x3x32768_S2x3x32768 : S2x3x32768.ShapeCasts S2x3x32768
  slices_S2x3x512_o0_0_0_S2x1x512 : S2x3x512.Slices ![0, 0, 0] S2x1x512
  shapeCasts_S2x1x512_S2x512 : S2x1x512.ShapeCasts S2x512
  shapeCasts_S2x512_S2x512x1 : S2x512.ShapeCasts S2x512x1
  slices_S2x3x512_o0_1_0_S2x1x512 : S2x3x512.Slices ![0, 1, 0] S2x1x512
  slices_S2x3x512_o0_2_0_S2x1x512 : S2x3x512.Slices ![0, 2, 0] S2x1x512
  slices_S2x3x32768_o0_0_0_S2x1x1024 : S2x3x32768.Slices ![0, 0, 0] S2x1x1024
  shapeCasts_S2x1x1024_S2x1024 : S2x1x1024.ShapeCasts S2x1024
  shapeCasts_S2x1024_S2x1x1024 : S2x1024.ShapeCasts S2x1x1024
  broadcasts_S2x512x1_S2x512x1024 : S2x512x1.Broadcasts S2x512x1024
  broadcasts_S2x1x1024_S2x512x1024 : S2x1x1024.Broadcasts S2x512x1024
  slices_S2x3x32768_o0_1_0_S2x1x1024 : S2x3x32768.Slices ![0, 1, 0] S2x1x1024
  slices_S2x3x32768_o0_2_0_S2x1x1024 : S2x3x32768.Slices ![0, 2, 0] S2x1x1024
  slices_S2x3x32768_o0_0_1024_S2x1x1024 : S2x3x32768.Slices ![0, 0, 1024] S2x1x1024
  slices_S2x3x32768_o0_1_1024_S2x1x1024 : S2x3x32768.Slices ![0, 1, 1024] S2x1x1024
  slices_S2x3x32768_o0_2_1024_S2x1x1024 : S2x3x32768.Slices ![0, 2, 1024] S2x1x1024
  slices_S2x3x32768_o0_0_2048_S2x1x1024 : S2x3x32768.Slices ![0, 0, 2048] S2x1x1024
  slices_S2x3x32768_o0_1_2048_S2x1x1024 : S2x3x32768.Slices ![0, 1, 2048] S2x1x1024
  slices_S2x3x32768_o0_2_2048_S2x1x1024 : S2x3x32768.Slices ![0, 2, 2048] S2x1x1024
  slices_S2x3x32768_o0_0_3072_S2x1x1024 : S2x3x32768.Slices ![0, 0, 3072] S2x1x1024
  slices_S2x3x32768_o0_1_3072_S2x1x1024 : S2x3x32768.Slices ![0, 1, 3072] S2x1x1024
  slices_S2x3x32768_o0_2_3072_S2x1x1024 : S2x3x32768.Slices ![0, 2, 3072] S2x1x1024
  slices_S2x3x32768_o0_0_4096_S2x1x1024 : S2x3x32768.Slices ![0, 0, 4096] S2x1x1024
  slices_S2x3x32768_o0_1_4096_S2x1x1024 : S2x3x32768.Slices ![0, 1, 4096] S2x1x1024
  slices_S2x3x32768_o0_2_4096_S2x1x1024 : S2x3x32768.Slices ![0, 2, 4096] S2x1x1024
  slices_S2x3x32768_o0_0_5120_S2x1x1024 : S2x3x32768.Slices ![0, 0, 5120] S2x1x1024
  slices_S2x3x32768_o0_1_5120_S2x1x1024 : S2x3x32768.Slices ![0, 1, 5120] S2x1x1024
  slices_S2x3x32768_o0_2_5120_S2x1x1024 : S2x3x32768.Slices ![0, 2, 5120] S2x1x1024
  slices_S2x3x32768_o0_0_6144_S2x1x1024 : S2x3x32768.Slices ![0, 0, 6144] S2x1x1024
  slices_S2x3x32768_o0_1_6144_S2x1x1024 : S2x3x32768.Slices ![0, 1, 6144] S2x1x1024
  slices_S2x3x32768_o0_2_6144_S2x1x1024 : S2x3x32768.Slices ![0, 2, 6144] S2x1x1024
  slices_S2x3x32768_o0_0_7168_S2x1x1024 : S2x3x32768.Slices ![0, 0, 7168] S2x1x1024
  slices_S2x3x32768_o0_1_7168_S2x1x1024 : S2x3x32768.Slices ![0, 1, 7168] S2x1x1024
  slices_S2x3x32768_o0_2_7168_S2x1x1024 : S2x3x32768.Slices ![0, 2, 7168] S2x1x1024
  slices_S2x3x32768_o0_0_8192_S2x1x1024 : S2x3x32768.Slices ![0, 0, 8192] S2x1x1024
  slices_S2x3x32768_o0_1_8192_S2x1x1024 : S2x3x32768.Slices ![0, 1, 8192] S2x1x1024
  slices_S2x3x32768_o0_2_8192_S2x1x1024 : S2x3x32768.Slices ![0, 2, 8192] S2x1x1024
  slices_S2x3x32768_o0_0_9216_S2x1x1024 : S2x3x32768.Slices ![0, 0, 9216] S2x1x1024
  slices_S2x3x32768_o0_1_9216_S2x1x1024 : S2x3x32768.Slices ![0, 1, 9216] S2x1x1024
  slices_S2x3x32768_o0_2_9216_S2x1x1024 : S2x3x32768.Slices ![0, 2, 9216] S2x1x1024
  slices_S2x3x32768_o0_0_10240_S2x1x1024 : S2x3x32768.Slices ![0, 0, 10240] S2x1x1024
  slices_S2x3x32768_o0_1_10240_S2x1x1024 : S2x3x32768.Slices ![0, 1, 10240] S2x1x1024
  slices_S2x3x32768_o0_2_10240_S2x1x1024 : S2x3x32768.Slices ![0, 2, 10240] S2x1x1024
  slices_S2x3x32768_o0_0_11264_S2x1x1024 : S2x3x32768.Slices ![0, 0, 11264] S2x1x1024
  slices_S2x3x32768_o0_1_11264_S2x1x1024 : S2x3x32768.Slices ![0, 1, 11264] S2x1x1024
  slices_S2x3x32768_o0_2_11264_S2x1x1024 : S2x3x32768.Slices ![0, 2, 11264] S2x1x1024
  slices_S2x3x32768_o0_0_12288_S2x1x1024 : S2x3x32768.Slices ![0, 0, 12288] S2x1x1024
  slices_S2x3x32768_o0_1_12288_S2x1x1024 : S2x3x32768.Slices ![0, 1, 12288] S2x1x1024
  slices_S2x3x32768_o0_2_12288_S2x1x1024 : S2x3x32768.Slices ![0, 2, 12288] S2x1x1024
  slices_S2x3x32768_o0_0_13312_S2x1x1024 : S2x3x32768.Slices ![0, 0, 13312] S2x1x1024
  slices_S2x3x32768_o0_1_13312_S2x1x1024 : S2x3x32768.Slices ![0, 1, 13312] S2x1x1024
  slices_S2x3x32768_o0_2_13312_S2x1x1024 : S2x3x32768.Slices ![0, 2, 13312] S2x1x1024
  slices_S2x3x32768_o0_0_14336_S2x1x1024 : S2x3x32768.Slices ![0, 0, 14336] S2x1x1024
  slices_S2x3x32768_o0_1_14336_S2x1x1024 : S2x3x32768.Slices ![0, 1, 14336] S2x1x1024
  slices_S2x3x32768_o0_2_14336_S2x1x1024 : S2x3x32768.Slices ![0, 2, 14336] S2x1x1024
  slices_S2x3x32768_o0_0_15360_S2x1x1024 : S2x3x32768.Slices ![0, 0, 15360] S2x1x1024
  slices_S2x3x32768_o0_1_15360_S2x1x1024 : S2x3x32768.Slices ![0, 1, 15360] S2x1x1024
  slices_S2x3x32768_o0_2_15360_S2x1x1024 : S2x3x32768.Slices ![0, 2, 15360] S2x1x1024
  slices_S2x3x32768_o0_0_16384_S2x1x1024 : S2x3x32768.Slices ![0, 0, 16384] S2x1x1024
  slices_S2x3x32768_o0_1_16384_S2x1x1024 : S2x3x32768.Slices ![0, 1, 16384] S2x1x1024
  slices_S2x3x32768_o0_2_16384_S2x1x1024 : S2x3x32768.Slices ![0, 2, 16384] S2x1x1024
  slices_S2x3x32768_o0_0_17408_S2x1x1024 : S2x3x32768.Slices ![0, 0, 17408] S2x1x1024
  slices_S2x3x32768_o0_1_17408_S2x1x1024 : S2x3x32768.Slices ![0, 1, 17408] S2x1x1024
  slices_S2x3x32768_o0_2_17408_S2x1x1024 : S2x3x32768.Slices ![0, 2, 17408] S2x1x1024
  slices_S2x3x32768_o0_0_18432_S2x1x1024 : S2x3x32768.Slices ![0, 0, 18432] S2x1x1024
  slices_S2x3x32768_o0_1_18432_S2x1x1024 : S2x3x32768.Slices ![0, 1, 18432] S2x1x1024
  slices_S2x3x32768_o0_2_18432_S2x1x1024 : S2x3x32768.Slices ![0, 2, 18432] S2x1x1024
  slices_S2x3x32768_o0_0_19456_S2x1x1024 : S2x3x32768.Slices ![0, 0, 19456] S2x1x1024
  slices_S2x3x32768_o0_1_19456_S2x1x1024 : S2x3x32768.Slices ![0, 1, 19456] S2x1x1024
  slices_S2x3x32768_o0_2_19456_S2x1x1024 : S2x3x32768.Slices ![0, 2, 19456] S2x1x1024
  slices_S2x3x32768_o0_0_20480_S2x1x1024 : S2x3x32768.Slices ![0, 0, 20480] S2x1x1024
  slices_S2x3x32768_o0_1_20480_S2x1x1024 : S2x3x32768.Slices ![0, 1, 20480] S2x1x1024
  slices_S2x3x32768_o0_2_20480_S2x1x1024 : S2x3x32768.Slices ![0, 2, 20480] S2x1x1024
  slices_S2x3x32768_o0_0_21504_S2x1x1024 : S2x3x32768.Slices ![0, 0, 21504] S2x1x1024
  slices_S2x3x32768_o0_1_21504_S2x1x1024 : S2x3x32768.Slices ![0, 1, 21504] S2x1x1024
  slices_S2x3x32768_o0_2_21504_S2x1x1024 : S2x3x32768.Slices ![0, 2, 21504] S2x1x1024
  slices_S2x3x32768_o0_0_22528_S2x1x1024 : S2x3x32768.Slices ![0, 0, 22528] S2x1x1024
  slices_S2x3x32768_o0_1_22528_S2x1x1024 : S2x3x32768.Slices ![0, 1, 22528] S2x1x1024
  slices_S2x3x32768_o0_2_22528_S2x1x1024 : S2x3x32768.Slices ![0, 2, 22528] S2x1x1024
  slices_S2x3x32768_o0_0_23552_S2x1x1024 : S2x3x32768.Slices ![0, 0, 23552] S2x1x1024
  slices_S2x3x32768_o0_1_23552_S2x1x1024 : S2x3x32768.Slices ![0, 1, 23552] S2x1x1024
  slices_S2x3x32768_o0_2_23552_S2x1x1024 : S2x3x32768.Slices ![0, 2, 23552] S2x1x1024
  slices_S2x3x32768_o0_0_24576_S2x1x1024 : S2x3x32768.Slices ![0, 0, 24576] S2x1x1024
  slices_S2x3x32768_o0_1_24576_S2x1x1024 : S2x3x32768.Slices ![0, 1, 24576] S2x1x1024
  slices_S2x3x32768_o0_2_24576_S2x1x1024 : S2x3x32768.Slices ![0, 2, 24576] S2x1x1024
  slices_S2x3x32768_o0_0_25600_S2x1x1024 : S2x3x32768.Slices ![0, 0, 25600] S2x1x1024
  slices_S2x3x32768_o0_1_25600_S2x1x1024 : S2x3x32768.Slices ![0, 1, 25600] S2x1x1024
  slices_S2x3x32768_o0_2_25600_S2x1x1024 : S2x3x32768.Slices ![0, 2, 25600] S2x1x1024
  slices_S2x3x32768_o0_0_26624_S2x1x1024 : S2x3x32768.Slices ![0, 0, 26624] S2x1x1024
  slices_S2x3x32768_o0_1_26624_S2x1x1024 : S2x3x32768.Slices ![0, 1, 26624] S2x1x1024
  slices_S2x3x32768_o0_2_26624_S2x1x1024 : S2x3x32768.Slices ![0, 2, 26624] S2x1x1024
  slices_S2x3x32768_o0_0_27648_S2x1x1024 : S2x3x32768.Slices ![0, 0, 27648] S2x1x1024
  slices_S2x3x32768_o0_1_27648_S2x1x1024 : S2x3x32768.Slices ![0, 1, 27648] S2x1x1024
  slices_S2x3x32768_o0_2_27648_S2x1x1024 : S2x3x32768.Slices ![0, 2, 27648] S2x1x1024
  slices_S2x3x32768_o0_0_28672_S2x1x1024 : S2x3x32768.Slices ![0, 0, 28672] S2x1x1024
  slices_S2x3x32768_o0_1_28672_S2x1x1024 : S2x3x32768.Slices ![0, 1, 28672] S2x1x1024
  slices_S2x3x32768_o0_2_28672_S2x1x1024 : S2x3x32768.Slices ![0, 2, 28672] S2x1x1024
  slices_S2x3x32768_o0_0_29696_S2x1x1024 : S2x3x32768.Slices ![0, 0, 29696] S2x1x1024
  slices_S2x3x32768_o0_1_29696_S2x1x1024 : S2x3x32768.Slices ![0, 1, 29696] S2x1x1024
  slices_S2x3x32768_o0_2_29696_S2x1x1024 : S2x3x32768.Slices ![0, 2, 29696] S2x1x1024
  slices_S2x3x32768_o0_0_30720_S2x1x1024 : S2x3x32768.Slices ![0, 0, 30720] S2x1x1024
  slices_S2x3x32768_o0_1_30720_S2x1x1024 : S2x3x32768.Slices ![0, 1, 30720] S2x1x1024
  slices_S2x3x32768_o0_2_30720_S2x1x1024 : S2x3x32768.Slices ![0, 2, 30720] S2x1x1024
  slices_S2x3x32768_o0_0_31744_S2x1x1024 : S2x3x32768.Slices ![0, 0, 31744] S2x1x1024
  slices_S2x3x32768_o0_1_31744_S2x1x1024 : S2x3x32768.Slices ![0, 1, 31744] S2x1x1024
  slices_S2x3x32768_o0_2_31744_S2x1x1024 : S2x3x32768.Slices ![0, 2, 31744] S2x1x1024
  reduces_S2x512x1024_S2x512 : S2x512x1024.Reduces [2] S2x512
  inb_S2x512_S2x512_0_0 : ∀ a, (![0, 0] : Fin 2 → Nat) a + S2x512.size a ≤ S2x512.size a
  h_S2x512 : 0 < S2x512.numel
  reducesTo_S2x4096_S_d0_1 : S2x4096.ReducesTo [0, 1] S_
  h_S_ : 0 < S_.numel
  gather_S2x8192x3_S4096x1_S2x4096x3_02_1_n_n_1_1_213_wf : GatherDims.WF S2x8192x3 S4096x1 S2x4096x3 [0, 2] [1] [] [1] [] 1 ![2, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3x512.size a ≤ S2x3x4096.size a
  hwx0_0 : ∀ i : grid0.Coords, EltTy.bits .f32 = 32 ∨ (Rect.block (s := S2x3x4096) S2x3x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x3x32768.size a ≤ S2x3x32768.size a
  hwx0_1 : ∀ i : grid0.Coords, EltTy.bits .f32 = 32 ∨ (Rect.block (s := S2x3x32768) S2x3x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512.size a ≤ S2x4096.size a
  hwx0_2 : ∀ i : grid0.Coords, EltTy.bits .f32 = 32 ∨ (Rect.block (s := S2x4096) S2x512.size (cc0_transform_2 i) (hinb0_2 i)).WholeWords (EltTy.packing .f32)

variable [Facts₀]

def gather_S2x8192x3_S4096x1_S2x4096x3_02_1_n_n_1_1_213 : GatherDims S2x8192x3 S4096x1 S2x4096x3 where
  offsetDims := [0, 2]
  collapsedSliceDims := [1]
  operandBatchingDims := []
  startIndicesBatchingDims := []
  startIndexMap := [1]
  indexVectorDim := 1
  sliceSizes := ![2, 1, 3]
  wf := gather_S2x8192x3_S4096x1_S2x4096x3_02_1_n_n_1_1_213_wf

abbrev win0_0 : Pipeline.Window sig grid0 :=
  Pipeline.Window.ofSpec (Memref.whole main_v7) S2x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2x3x32768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x8192x3 : Shape := ⟨3, ![2, 8192, 3]⟩
abbrev S2x32768x3 : Shape := ⟨3, ![2, 32768, 3]⟩
abbrev S4096 : Shape := ⟨1, ![4096]⟩
abbrev S_ : Shape := ⟨0, ![]⟩
abbrev S4096x1 : Shape := ⟨2, ![4096, 1]⟩
abbrev S2x4096x3 : Shape := ⟨3, ![2, 4096, 3]⟩
abbrev S2x4096 : Shape := ⟨2, ![2, 4096]⟩
abbrev S2x32768 : Shape := ⟨2, ![2, 32768]⟩
abbrev S2x4096x32768 : Shape := ⟨3, ![2, 4096, 32768]⟩
abbrev S2x4096x1 : Shape := ⟨3, ![2, 4096, 1]⟩
abbrev S2x1x32768 : Shape := ⟨3, ![2, 1, 32768]⟩

abbrev nBuf : Space → Nat
  | .hbm => 38
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x32768x3, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S2x4096x3, .f32⟩
  | .hbm, ⟨12, _⟩ => ⟨S2x4096x3, .f32⟩
  | .hbm, ⟨13, _⟩ => ⟨S_, .f32⟩
  | .hbm, ⟨14, _⟩ => ⟨S2x4096, .f32⟩
  | .hbm, ⟨15, _⟩ => ⟨S2x32768x3, .f32⟩
  | .hbm, ⟨16, _⟩ => ⟨S_, .f32⟩
  | .hbm, ⟨17, _⟩ => ⟨S2x32768, .f32⟩
  | .hbm, ⟨18, _⟩ => ⟨S2x4096x32768, .f32⟩
  | .hbm, ⟨19, _⟩ => ⟨S2x4096x1, .f32⟩
  | .hbm, ⟨20, _⟩ => ⟨S2x1x32768, .f32⟩
  | .hbm, ⟨21, _⟩ => ⟨S2x4096x32768, .f32⟩
  | .hbm, ⟨22, _⟩ => ⟨S2x4096x32768, .f32⟩
  | .hbm, ⟨23, _⟩ => ⟨S2x4096x32768, .f32⟩
  | .hbm, ⟨24, _⟩ => ⟨S_, .f32⟩
  | .hbm, ⟨25, _⟩ => ⟨S2x4096x32768, .f32⟩
  | .hbm, ⟨26, _⟩ => ⟨S2x4096x32768, .f32⟩
  | .hbm, ⟨27, _⟩ => ⟨S2x4096x32768, .f32⟩
  | .hbm, ⟨28, _⟩ => ⟨S_, .f32⟩
  | .hbm, ⟨29, _⟩ => ⟨S2x4096x32768, .f32⟩
  | .hbm, ⟨30, _⟩ => ⟨S2x4096x32768, .f32⟩
  | .hbm, ⟨31, _⟩ => ⟨S2x4096x32768, .f32⟩
  | .hbm, ⟨32, _⟩ => ⟨S_, .f32⟩
  | .hbm, ⟨33, _⟩ => ⟨S2x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S2x4096x3_S2x4096_d2 : S2x4096x3.ReducesTo [2] S2x4096
  h_S_ : 0 < S_.numel
  reducesTo_S2x32768x3_S2x32768_d2 : S2x32768x3.ReducesTo [2] S2x32768
  bcast_S2x4096_S2x4096x1_0_1 : S2x4096.BroadcastsInDim S2x4096x1 (![0, 1] : Fin 2 → Fin S2x4096x1.rank)
  bcast_S2x32768_S2x1x32768_0_2 : S2x32768.BroadcastsInDim S2x1x32768 (![0, 2] : Fin 2 → Fin S2x1x32768.rank)
  bcast_S2x4096x1_S2x4096x32768_0_1_2 : S2x4096x1.BroadcastsInDim S2x4096x32768 (![0, 1, 2] : Fin 3 → Fin S2x4096x32768.rank)
  bcast_S2x1x32768_S2x4096x32768_0_1_2 : S2x1x32768.BroadcastsInDim S2x4096x32768 (![0, 1, 2] : Fin 3 → Fin S2x4096x32768.rank)
  bcast_S_S2x4096x32768 : S_.BroadcastsInDim S2x4096x32768 (![] : Fin 0 → Fin S2x4096x32768.rank)
  reducesTo_S2x4096x32768_S2x4096_d2 : S2x4096x32768.ReducesTo [2] S2x4096
  reducesTo_S2x4096_S_d0_1 : S2x4096.ReducesTo [0, 1] S_
  gather_S2x8192x3_S4096x1_S2x4096x3_02_1_n_n_1_1_213_wf : GatherDims.WF S2x8192x3 S4096x1 S2x4096x3 [0, 2] [1] [] [1] [] 1 ![2, 1, 3]
  dot_S2x4096x3_S2x32768x3_S2x4096x32768_2_2_1_1_0_0_wf : DotDims.WF S2x4096x3 S2x32768x3 S2x4096x32768 [2] [2] [1] [1] [0] [0]

variable [Facts₀]

def gather_S2x8192x3_S4096x1_S2x4096x3_02_1_n_n_1_1_213 : GatherDims S2x8192x3 S4096x1 S2x4096x3 where
  offsetDims := [0, 2]
  collapsedSliceDims := [1]
  operandBatchingDims := []
  startIndicesBatchingDims := []
  startIndexMap := [1]
  indexVectorDim := 1
  sliceSizes := ![2, 1, 3]
  wf := gather_S2x8192x3_S4096x1_S2x4096x3_02_1_n_n_1_1_213_wf
def dot_S2x4096x3_S2x32768x3_S2x4096x32768_2_2_1_1_0_0 : DotDims S2x4096x3 S2x32768x3 S2x4096x32768 where
  lhsContracting := [2]
  rhsContracting := [2]
  lhsNonContracting := [1]
  rhsNonContracting := [1]
  lhsBatch := [0]
  rhsBatch := [0]
  wf := dot_S2x4096x3_S2x32768x3_S2x4096x32768_2_2_1_1_0_0_wf

class Facts : Prop extends Facts₀ where

variable [Facts]
-- ==== Proof.LibRootMin.lean ====
/-
  The root of a clamped value and the minimum of a finite family, on the extended reals.

  `Ideal.sqrt` is monotone (below zero it is the least element, and it keeps +∞), so x ↦ √(max x 0) is monotone and
  keeps +∞; a monotone map that keeps the top commutes with the infimum of a finite family.  A fold of the minimum
  started from +∞ is that infimum.  Last, the two ways a program takes a minimum from +∞ over the LAST axis of a
  rank-3 array — the vector unit's lane reduction and the host's reduce — read at an entry (p, q) of the result:
  the infimum over k of the array at (p, q, k), for any extents.
-/
import Idealize.ShloMosaic.PureOps.Ideal
import Idealize.ShloMosaic.PureOps.Ideal.Laws
import Idealize.ShloMosaic.PureOps.Reduce
import Idealize.ShloMosaic.Lib.ValueIdx

noncomputable section

namespace Cert.Lib.RootMin

open Idealize.ShloMosaic Idealize.ShloMosaic.ValueIdx

/-- The f32 word 0x7F800000 is +∞, the top of the extended reals. -/
theorem ofBits_inf_f32 : Ideal.ofBits .f32 0x7F800000#32 = (⊤ : EReal) := by
  simp [Ideal.ofBits, Ideal.ieee]

/-- The root is monotone on the extended reals (below zero it is the least element). -/
theorem sqrt_mono : Monotone Ideal.sqrt := by
  intro x y hxy
  induction x using EReal.rec with
  | bot => exact bot_le
  | top => rw [top_le_iff.1 hxy]
  | coe a =>
    induction y using EReal.rec with
    | bot => exact absurd hxy (by simp)
    | top => exact le_top
    | coe c =>
      have hac : a ≤ c := EReal.coe_le_coe_iff.1 hxy
      rw [Ideal.sqrt_coe, Ideal.sqrt_coe]
      by_cases ha : a < 0
      · rw [if_pos ha]; exact bot_le
      · rw [if_neg ha, if_neg (by linarith)]
        exact EReal.coe_le_coe_iff.2 (Real.sqrt_le_sqrt hac)

/-- The root of the value clamped below at zero is monotone. -/
theorem sqrtClamp_mono : Monotone fun x : EReal => Ideal.sqrt (max x 0) :=
  fun _ _ h => sqrt_mono (max_le_max h le_rfl)

/-- It keeps +∞. -/
theorem sqrtClamp_top : Ideal.sqrt (max (⊤ : EReal) 0) = ⊤ := by
  rw [max_eq_left le_top, Ideal.sqrt_top]

/-- The clamped root of the minimum of a finite family is the minimum of the clamped roots. -/
theorem sqrtClamp_inf {ι : Type} (s : Finset ι) (f : ι → EReal) :
    Ideal.sqrt (max (s.inf f) 0) = s.inf fun i => Ideal.sqrt (max (f i) 0) :=
  Finset.apply_inf_eq_inf_comp_of_linearOrder (fun x : EReal => Ideal.sqrt (max x 0)) sqrtClamp_mono sqrtClamp_top

/-- A fold of the ideal minimum from +∞ over a finite family is the family's infimum. -/
theorem fold_min_top_eq_inf {ι : Type} (s : Finset ι) (g : ι → EReal) :
    s.fold (FloatOps.minimumf (F := Ideal) (φ := .f32)) (⊤ : EReal) g = s.inf g := rfl

/-- The vector unit's minimum over the last axis of an [a, b, n] array, started from +∞, at (p, q): the infimum over
    the lanes `k` of the array at (p, q, k). -/
theorem laneMin_apply {a b n : Nat} (src : FVec Ideal ⟨3, ![a, b, n]⟩ .f32)
    (h : (⟨3, ![a, b, n]⟩ : Shape).Reduces [2] ⟨2, ![a, b]⟩) (hφ : FKind.Formats .f32)
    (hacc : (0x7F800000#32 : BitVec 32) = 0x7F800000#32) (p : Fin a) (q : Fin b) :
    multiReduction .minimumf [2] ⟨2, ![a, b]⟩ src 0x7F800000#32 h hφ hacc (ix2 p q)
      = Finset.univ.inf fun k : Fin n => src (ix3 p q k) := by
  refine (multiReduction_minimumf_eq_fold src 0x7F800000#32 h hφ hacc (ix2 p q)).trans ?_
  refine (h.fold_filter_drop_single FloatOps.minimumf (FloatOps.ofBits .f32 0x7F800000#32) src (ix2 p q)).trans ?_
  show (Finset.univ : Finset (Fin n)).fold min (Ideal.ofBits .f32 0x7F800000#32) (src ∘ h.lift (ix2 p q)) = _
  rw [ofBits_inf_f32]
  refine Finset.fold_congr fun k _ => ?_
  exact congrArg src (funext fun c => Fin.ext (by match c with | ⟨0, _⟩ => rfl | ⟨1, _⟩ => rfl | ⟨2, _⟩ => rfl))

/-- The host's reduce by minimum over the last axis of an [a, b, n] array, started from a scalar holding +∞, at
    (p, q): the infimum over `k` of the array at (p, q, k). -/
theorem hostMin_apply {a b n : Nat} {u : Shape} (x : FVec Ideal ⟨3, ![a, b, n]⟩ .f32) (init : u.Idx → EReal)
    (h' : (⟨3, ![a, b, n]⟩ : Shape).ReducesTo [2] ⟨2, ![a, b]⟩) (h : (⟨3, ![a, b, n]⟩ : Shape).Reduces [2] ⟨2, ![a, b]⟩)
    (hu : 0 < u.numel) (hinit : init (Shape.Idx.first hu) = (⊤ : EReal)) (p : Fin a) (q : Fin b) :
    Host.reduce (FloatOps.minimumf (F := Ideal) (φ := .f32)) x init h' hu (ix2 p q)
      = Finset.univ.inf fun k : Fin n => x (ix3 p q k) := by
  refine (Host.reduce_eq_fold_single (FloatOps.minimumf (F := Ideal) (φ := .f32)) x init h' h hu (ix2 p q)).trans ?_
  rw [hinit]
  refine (Finset.fold_congr (g := fun k : Fin n => x (ix3 p q k)) fun k _ => ?_).trans (fold_min_top_eq_inf _ _)
  exact congrArg x (funext fun c => Fin.ext (by match c with | ⟨0, _⟩ => rfl | ⟨1, _⟩ => rfl | ⟨2, _⟩ => rfl))

end Cert.Lib.RootMin

end
-- ==== Proof.KLayout.lean ====
/-
  The layout operations of the distance kernel's body, read at an index given by coordinates.

  The body works on one block of sampled points, [2, 3, 512] (batch, coordinate, point), and on the whole target
  array, [2, 3, 32768] (batch, coordinate, target).  A coordinate row of the point block is cut out, cast to
  [2, 512] and then to a column [2, 512, 1]; a run of 1024 targets of one coordinate is cut out of the target array,
  cast to [2, 1024] and back to a row [2, 1, 1024]; column and row are broadcast to [2, 512, 1024].  Each lemma
  says which element of its operand such a value reads; the last one reads the minimum over the 1024 lanes,
  started from +∞, as the infimum of a finite family.
-/
import Idealize.ShloMosaic.Lib.Pipeline.Value
import Idealize.ShloMosaic.Lib.ValueIdx
import Idealize.ShloMosaic.PureOps.Ideal.Laws
import Idealize.ShloMosaic.PureOps.Reduce
import proofs.«114241_j42795054137807_2_alg».proof.Proof.LibRootMin

noncomputable section

namespace Cert.Chamfer.Lay

open Idealize.ShloMosaic Idealize.ShloMosaic.ValueIdx

variable {α : Type}

/-- A block of sampled points: batch, coordinate, point. -/
abbrev BP : Shape := ⟨3, ![2, 3, 512]⟩
/-- The targets: batch, coordinate, target. -/
abbrev BT : Shape := ⟨3, ![2, 3, 32768]⟩
abbrev RowP : Shape := ⟨3, ![2, 1, 512]⟩
abbrev FlatP : Shape := ⟨2, ![2, 512]⟩
abbrev ColP : Shape := ⟨3, ![2, 512, 1]⟩
abbrev RowT : Shape := ⟨3, ![2, 1, 1024]⟩
abbrev FlatT : Shape := ⟨2, ![2, 1024]⟩
/-- One chunk of squared distances: batch, point, lane. -/
abbrev Tile : Shape := ⟨3, ![2, 512, 1024]⟩

/-! ## Slices -/

theorem coord_lt_of_slice_pts {d : Nat} (h : BP.Slices ![0, d, 0] RowP) : d < 3 := by
  have h1 : d + 1 ≤ 3 := h.2 (1 : Fin 3)
  omega

/-- Coordinate row `d` of the point block, at `(b, ·, s)`: the block at `(b, d, s)`. -/
theorem slice_pts_apply (x : BP.Idx → α) (d : Nat) (h : BP.Slices ![0, d, 0] RowP) (b : Fin 2) (u : Fin 1) (s : Fin 512) :
    extractStridedSlice RowP ![0, d, 0] x h (ix3 b u s) = x (ix3 b ⟨d, coord_lt_of_slice_pts h⟩ s) :=
  extractStridedSlice_apply _ x h (ix3 b u s) (ix3 b ⟨d, coord_lt_of_slice_pts h⟩ s) (fun a => by
    match a with
    | ⟨0, _⟩ => show b.val = 0 + b.val; omega
    | ⟨1, _⟩ => show d = d + u.val; have := u.isLt; omega
    | ⟨2, _⟩ => show s.val = 0 + s.val; omega)

theorem coord_lt_of_slice_tgt {d o : Nat} (h : BT.Slices ![0, d, o] RowT) : d < 3 := by
  have h1 : d + 1 ≤ 3 := h.2 (1 : Fin 3)
  omega

theorem lane_lt_of_slice_tgt {d o : Nat} (h : BT.Slices ![0, d, o] RowT) (l : Fin 1024) : o + l.val < 32768 := by
  have h2 : o + 1024 ≤ 32768 := h.2 (2 : Fin 3)
  have := l.isLt
  omega

/-- The run of 1024 targets from `o` of coordinate `d`, at `(b, ·, l)`: the target array at `(b, d, o + l)`. -/
theorem slice_tgt_apply (v : BT.Idx → α) (d o : Nat) (h : BT.Slices ![0, d, o] RowT) (b : Fin 2) (u : Fin 1) (l : Fin 1024) :
    extractStridedSlice RowT ![0, d, o] v h (ix3 b u l)
      = v (ix3 b ⟨d, coord_lt_of_slice_tgt h⟩ ⟨o + l.val, lane_lt_of_slice_tgt h l⟩) :=
  extractStridedSlice_apply _ v h (ix3 b u l) (ix3 b ⟨d, coord_lt_of_slice_tgt h⟩ ⟨o + l.val, lane_lt_of_slice_tgt h l⟩) (fun a => by
    match a with
    | ⟨0, _⟩ => show b.val = 0 + b.val; omega
    | ⟨1, _⟩ => show d = d + u.val; have := u.isLt; omega
    | ⟨2, _⟩ => rfl)

/-! ## Casts that drop or add a unit axis -/

/-- [2, 1, 512] cast to [2, 512]. -/
theorem cast_rowP_flat_apply (q : RowP.Idx → α) (h : RowP.ShapeCasts FlatP) (b : Fin 2) (s : Fin 512) :
    shapeCast FlatP q h (ix2 b s) = q (ix3 b 0 s) :=
  shapeCast_apply q h (ix2 b s) (ix3 b 0 s) (by
    rw [Shape.rowMajor_val_three, Shape.rowMajor_val_two]
    show (b.val * 1 + 0) * 512 + s.val = b.val * 512 + s.val
    omega)

/-- [2, 512] cast to the column [2, 512, 1]. -/
theorem cast_flat_colP_apply (r : FlatP.Idx → α) (h : FlatP.ShapeCasts ColP) (b : Fin 2) (s : Fin 512) (u : Fin 1) :
    shapeCast ColP r h (ix3 b s u) = r (ix2 b s) :=
  shapeCast_apply r h (ix3 b s u) (ix2 b s) (by
    rw [Shape.rowMajor_val_three, Shape.rowMajor_val_two]
    show b.val * 512 + s.val = (b.val * 512 + s.val) * 1 + u.val
    have := u.isLt
    omega)

/-- [2, 1, 1024] cast to [2, 1024]. -/
theorem cast_rowT_flat_apply (q : RowT.Idx → α) (h : RowT.ShapeCasts FlatT) (b : Fin 2) (l : Fin 1024) :
    shapeCast FlatT q h (ix2 b l) = q (ix3 b 0 l) :=
  shapeCast_apply q h (ix2 b l) (ix3 b 0 l) (by
    rw [Shape.rowMajor_val_three, Shape.rowMajor_val_two]
    show (b.val * 1 + 0) * 1024 + l.val = b.val * 1024 + l.val
    omega)

/-- [2, 1024] cast to the row [2, 1, 1024]. -/
theorem cast_flat_rowT_apply (r : FlatT.Idx → α) (h : FlatT.ShapeCasts RowT) (b : Fin 2) (u : Fin 1) (l : Fin 1024) :
    shapeCast RowT r h (ix3 b u l) = r (ix2 b l) :=
  shapeCast_apply r h (ix3 b u l) (ix2 b l) (by
    rw [Shape.rowMajor_val_three, Shape.rowMajor_val_two]
    show b.val * 1024 + l.val = (b.val * 1 + u.val) * 1024 + l.val
    have := u.isLt
    omega)

/-! ## Broadcasts to a chunk -/

/-- A column [2, 512, 1] broadcast along the lanes. -/
theorem bcast_col_apply (p : ColP.Idx → α) (h : ColP.Broadcasts Tile) (b : Fin 2) (s : Fin 512) (l : Fin 1024) :
    broadcastTo Tile p h (ix3 b s l) = p (ix3 b s 0) :=
  broadcastTo_apply p h (ix3 b s l) (ix3 b s 0) (fun a => by
    match a with
    | ⟨0, _⟩ => show b.val = if (2 : Nat) = 1 then 0 else b.val; rw [if_neg (by decide)]
    | ⟨1, _⟩ => show s.val = if (512 : Nat) = 1 then 0 else s.val; rw [if_neg (by decide)]
    | ⟨2, _⟩ => show 0 = if (1 : Nat) = 1 then 0 else l.val; rw [if_pos rfl])

/-- A row [2, 1, 1024] broadcast down the points. -/
theorem bcast_row_apply (q : RowT.Idx → α) (h : RowT.Broadcasts Tile) (b : Fin 2) (s : Fin 512) (l : Fin 1024) :
    broadcastTo Tile q h (ix3 b s l) = q (ix3 b 0 l) :=
  broadcastTo_apply q h (ix3 b s l) (ix3 b 0 l) (fun a => by
    match a with
    | ⟨0, _⟩ => show b.val = if (2 : Nat) = 1 then 0 else b.val; rw [if_neg (by decide)]
    | ⟨1, _⟩ => show 0 = if (1 : Nat) = 1 then 0 else s.val; rw [if_pos rfl]
    | ⟨2, _⟩ => show l.val = if (1024 : Nat) = 1 then 0 else l.val; rw [if_neg (by decide)])

/-! ## The minimum over the lanes -/

/-- The f32 pattern of +∞ is the top of the extended reals. -/
theorem ofBits_inf : Ideal.ofBits .f32 0x7F800000#32 = (⊤ : EReal) := Cert.Lib.RootMin.ofBits_inf_f32

/-- The minimum over the 1024 lanes of a chunk, started from +∞, at `(b, s)`: the infimum of the row's entries. -/
theorem minLanes_apply (src : FVec Ideal Tile .f32) (h : Tile.Reduces [2] FlatP) (hφ : FKind.Formats .f32)
    (hacc : (0x7F800000#32 : BitVec 32) = 0x7F800000#32) (b : Fin 2) (s : Fin 512) :
    multiReduction .minimumf [2] FlatP src 0x7F800000#32 h hφ hacc (ix2 b s)
      = Finset.univ.inf fun l : Fin 1024 => src (ix3 b s l) :=
  Cert.Lib.RootMin.laneMin_apply src h hφ hacc b s

end Cert.Chamfer.Lay

end
-- ==== Proof.Spec.lean ====
/-
  The quantity both programs compute, stated once over the extended reals.

  For a batch `b`, a sampled point `s` and a target point `m` the SQUARED DISTANCE is the sum over the three
  coordinates of the squared differences, added in the order ((d0 + d1) + d2).  The nearest-target distance of
  the sampled point is the root of the clamped minimum of these over all 32768 targets; the minimum of a finite
  family on the extended reals is `Finset.inf` (its empty value is +∞, the value both programs start their
  minimum from).  The final result is the mean of the 2 × 4096 nearest-target distances: their sum from 0,
  divided by 8192.
-/
import Idealize.ShloMosaic.PureOps.Ideal
import Idealize.ShloMosaic.Lib.ValueIdx

noncomputable section

namespace Cert.Chamfer

open Idealize.ShloMosaic Idealize.ShloMosaic.ValueIdx

/-- The sampled points, [batch, point, coordinate]. -/
abbrev SPts : Shape := ⟨3, ![2, 4096, 3]⟩
/-- The target points, [batch, point, coordinate]. -/
abbrev STgt : Shape := ⟨3, ![2, 32768, 3]⟩
/-- One distance per batch and sampled point. -/
abbrev SOut : Shape := ⟨2, ![2, 4096]⟩
/-- The scalar shape. -/
abbrev S0 : Shape := ⟨0, ![]⟩

/-- The squared distance of two points given by their three coordinates, the squares added as ((d0 + d1) + d2). -/
def sq3 (p t : Fin 3 → EReal) : EReal :=
  ((p 0 - t 0) * (p 0 - t 0) + (p 1 - t 1) * (p 1 - t 1)) + (p 2 - t 2) * (p 2 - t 2)

/-- The root of a value clamped below at zero. -/
def clampRoot (x : EReal) : EReal := Ideal.sqrt (max x 0)

/-- The distance from the point `p` to the nearest of the 32768 points `t m`: the root of the clamped least
    squared distance. -/
def rowMin (p : Fin 3 → EReal) (t : Fin 32768 → Fin 3 → EReal) : EReal :=
  clampRoot (Finset.univ.inf fun m : Fin 32768 => sq3 p (t m))

/-- The nearest-target distance of sampled point `(b, s)`. -/
def nearestAt (P : SPts.Idx → EReal) (T : STgt.Idx → EReal) (b : Fin 2) (s : Fin 4096) : EReal :=
  rowMin (fun d => P (ix3 b s d)) (fun m d => T (ix3 b m d))

/-- All of them, as an array. -/
def nearest (P : SPts.Idx → EReal) (T : STgt.Idx → EReal) : FVec Ideal SOut .f32 :=
  fun j => nearestAt P T ⟨(j 0).val, idx2_lt0 j⟩ ⟨(j 1).val, idx2_lt1 j⟩

theorem nearest_ix2 (P : SPts.Idx → EReal) (T : STgt.Idx → EReal) (b : Fin 2) (s : Fin 4096) :
    nearest P T (ix2 b s) = nearestAt P T b s := rfl

/-- The mean of the 8192 distances as both programs take it: the sum from 0 over both axes, divided by 8192. -/
def meanTail (X : FVec Ideal SOut .f32) (h : SOut.ReducesTo [0, 1] S0) (h0 : 0 < S0.numel) : FVec Ideal S0 .f32 :=
  Host.divf (F := Ideal) (Host.reduceAdd (F := Ideal) X (constant (F := Ideal) S0 .f32 0x00000000#32) h h0)
    (constant (F := Ideal) S0 .f32 0x46000000#32)

end Cert.Chamfer

end
-- ==== Proof.KBody.lean ====
/-
  The value the distance kernel's body stores, read at one entry.

  The body holds one block of sampled points (batch, coordinate, point: 2 × 3 × 512) and all targets (batch,
  coordinate, target: 2 × 3 × 32768).  It walks the targets in 32 chunks of 1024 lanes.  For a chunk starting at
  target `o` it forms, for every point `s` and lane `l`, the squared distance to target `o + l` — the three squared
  coordinate differences added as ((d0 + d1) + d2) — and keeps the lane-wise minimum over the chunks seen so far.  At
  the end it takes the minimum over the 1024 lanes from +∞, clamps at zero and takes the root.  Every target is
  `1024 c + l` for exactly one chunk `c` and lane `l`, so the lane minimum of the chunk minima is the minimum over
  all 32768 targets.
-/
import proofs.«114241_j42795054137807_2_alg».proof.Proof.Gen.KernelIdeal.Frame
import proofs.«114241_j42795054137807_2_alg».proof.Proof.KLayout
import proofs.«114241_j42795054137807_2_alg».proof.Proof.Spec

noncomputable section

namespace Cert.Chamfer.K

open Cert.KernelIdeal Cert.KernelIdeal.Gen Idealize.ShloMosaic Idealize.ShloMosaic.ValueIdx Cert.Chamfer Cert.Chamfer.Lay

theorem sqrt_apply {s : Shape} {φ : FTy} (x : FVec Ideal s φ) (i : s.Idx) : sqrt x i = Ideal.sqrt (x i) := rfl

theorem zero2 : (![0, 0] : Fin 2 → Nat) = fun _ => 0 := funext fun a => by fin_cases a <;> rfl
theorem zero3 : (![0, 0, 0] : Fin 3 → Nat) = fun _ => 0 := funext fun a => by fin_cases a <;> rfl

/-! ## One chunk -/

/-- The squared distance, at lane `l` of the chunk starting at target `o`, between point `s` (its three coordinates
    in the columns `v6`, `v9`, `v12`) and target `o + l` of the array `v3`. -/
def chunkAt (v3 : FVec Ideal S2x3x32768 .f32) (v6 v9 v12 : FVec Ideal S2x512x1 .f32) (b : Fin 2) (s : Fin 512) (l : Fin 1024)
    (o : Nat) (h : o + l.val < 32768) : EReal :=
  ((v6 (ix3 b s 0) - v3 (ix3 b 0 ⟨o + l.val, h⟩)) * (v6 (ix3 b s 0) - v3 (ix3 b 0 ⟨o + l.val, h⟩))
    + (v9 (ix3 b s 0) - v3 (ix3 b 1 ⟨o + l.val, h⟩)) * (v9 (ix3 b s 0) - v3 (ix3 b 1 ⟨o + l.val, h⟩)))
    + (v12 (ix3 b s 0) - v3 (ix3 b 2 ⟨o + l.val, h⟩)) * (v12 (ix3 b s 0) - v3 (ix3 b 2 ⟨o + l.val, h⟩))

/-- The body's sum of the three squared differences of one chunk, read at `(b, s, l)`. -/
theorem chunk_apply (v3 : FVec Ideal S2x3x32768 .f32) (v6 v9 v12 : FVec Ideal S2x512x1 .f32) (o : Nat)
    (h0 : S2x3x32768.Slices ![0, 0, o] S2x1x1024) (h1 : S2x3x32768.Slices ![0, 1, o] S2x1x1024)
    (h2 : S2x3x32768.Slices ![0, 2, o] S2x1x1024) (b : Fin 2) (s : Fin 512) (l : Fin 1024) :
    (addf (addf (mulf (subf (broadcastTo S2x512x1024 v6 broadcasts_S2x512x1_S2x512x1024) (broadcastTo S2x512x1024 (shapeCast S2x1x1024 (shapeCast S2x1024 (extractStridedSlice S2x1x1024 ![0, 0, o] v3 h0) shapeCasts_S2x1x1024_S2x1024) shapeCasts_S2x1024_S2x1x1024) broadcasts_S2x1x1024_S2x512x1024)) (subf (broadcastTo S2x512x1024 v6 broadcasts_S2x512x1_S2x512x1024) (broadcastTo S2x512x1024 (shapeCast S2x1x1024 (shapeCast S2x1024 (extractStridedSlice S2x1x1024 ![0, 0, o] v3 h0) shapeCasts_S2x1x1024_S2x1024) shapeCasts_S2x1024_S2x1x1024) broadcasts_S2x1x1024_S2x512x1024))) (mulf (subf (broadcastTo S2x512x1024 v9 broadcasts_S2x512x1_S2x512x1024) (broadcastTo S2x512x1024 (shapeCast S2x1x1024 (shapeCast S2x1024 (extractStridedSlice S2x1x1024 ![0, 1, o] v3 h1) shapeCasts_S2x1x1024_S2x1024) shapeCasts_S2x1024_S2x1x1024) broadcasts_S2x1x1024_S2x512x1024)) (subf (broadcastTo S2x512x1024 v9 broadcasts_S2x512x1_S2x512x1024) (broadcastTo S2x512x1024 (shapeCast S2x1x1024 (shapeCast S2x1024 (extractStridedSlice S2x1x1024 ![0, 1, o] v3 h1) shapeCasts_S2x1x1024_S2x1024) shapeCasts_S2x1024_S2x1x1024) broadcasts_S2x1x1024_S2x512x1024)))) (mulf (subf (broadcastTo S2x512x1024 v12 broadcasts_S2x512x1_S2x512x1024) (broadcastTo S2x512x1024 (shapeCast S2x1x1024 (shapeCast S2x1024 (extractStridedSlice S2x1x1024 ![0, 2, o] v3 h2) shapeCasts_S2x1x1024_S2x1024) shapeCasts_S2x1024_S2x1x1024) broadcasts_S2x1x1024_S2x512x1024)) (subf (broadcastTo S2x512x1024 v12 broadcasts_S2x512x1_S2x512x1024) (broadcastTo S2x512x1024 (shapeCast S2x1x1024 (shapeCast S2x1024 (extractStridedSlice S2x1x1024 ![0, 2, o] v3 h2) shapeCasts_S2x1x1024_S2x1024) shapeCasts_S2x1024_S2x1x1024) broadcasts_S2x1x1024_S2x512x1024)))) (ix3 b s l)
      = chunkAt v3 v6 v9 v12 b s l o (lane_lt_of_slice_tgt h0 l) := by
  simp only [addf_apply, mulf_apply, subf_apply, bcast_col_apply, bcast_row_apply, cast_flat_rowT_apply, cast_rowT_flat_apply,
    slice_tgt_apply]
  rfl

/-! ## The last statements of the body: lane minimum, clamp, root -/

theorem pay1_eq (v12 : FVec Ideal S2x512x1 .f32) (v755 v770 : FVec Ideal S2x512x1024 .f32) (v772 : FVec Ideal S2x1024 .f32) :
    k0_pay1 v12 v755 v770 v772
      = sqrt (maximumf
          (multiReduction .minimumf [2] S2x512
            (minimumf v755 (addf v770
              (mulf
                (subf (broadcastTo S2x512x1024 v12 broadcasts_S2x512x1_S2x512x1024)
                  (broadcastTo S2x512x1024 (shapeCast S2x1x1024 v772 shapeCasts_S2x1024_S2x1x1024) broadcasts_S2x1x1024_S2x512x1024))
                (subf (broadcastTo S2x512x1024 v12 broadcasts_S2x512x1_S2x512x1024)
                  (broadcastTo S2x512x1024 (shapeCast S2x1x1024 v772 shapeCasts_S2x1024_S2x1x1024) broadcasts_S2x1x1024_S2x512x1024)))))
            0x7F800000#32 reduces_S2x512x1024_S2x512 (.inl rfl) rfl)
          (broadcast S2x512 (Scalar.ofBits (F := Ideal) .f32 0x00000000#32))) := rfl

/-- The stored value at `(b, s)`: the root of the clamped minimum over the lanes of the last running minimum. -/
theorem pay1_apply (v12 : FVec Ideal S2x512x1 .f32) (v755 v770 : FVec Ideal S2x512x1024 .f32) (v772 : FVec Ideal S2x1024 .f32)
    (b : Fin 2) (s : Fin 512) :
    k0_pay1 v12 v755 v770 v772 (ix2 b s)
      = Ideal.sqrt (max (Finset.univ.inf fun l : Fin 1024 =>
          (minimumf v755 (addf v770
              (mulf
                (subf (broadcastTo S2x512x1024 v12 broadcasts_S2x512x1_S2x512x1024)
                  (broadcastTo S2x512x1024 (shapeCast S2x1x1024 v772 shapeCasts_S2x1024_S2x1x1024) broadcasts_S2x1x1024_S2x512x1024))
                (subf (broadcastTo S2x512x1024 v12 broadcasts_S2x512x1_S2x512x1024)
                  (broadcastTo S2x512x1024 (shapeCast S2x1x1024 v772 shapeCasts_S2x1024_S2x1x1024) broadcasts_S2x1x1024_S2x512x1024)))))
            (ix3 b s l)) 0) := by
  refine (congrFun (pay1_eq v12 v755 v770 v772) (ix2 b s)).trans ?_
  refine (sqrt_apply _ _).trans (congrArg Ideal.sqrt ?_)
  refine (maximumf_apply _ _ _).trans ?_
  refine congrArg₂ max ?_ ?_
  · exact minLanes_apply _ reduces_S2x512x1024_S2x512 (.inl rfl) rfl b s
  · exact Ideal.ofBits_zero_f32

/-! ## Thirty-two chunks of 1024 lanes are all 32768 targets -/

/-- The minimum over the lanes of the running minimum over the chunks is the minimum over all targets. -/
theorem inf_chunks (F : Fin 32768 → EReal) :
    (Finset.univ.inf fun l : Fin 1024 => min (min (min (min (min (min (min (min (min (min (min (min (min (min (min (min (min (min (min (min (min (min (min (min (min (min (min (min (min (min (min (F ⟨0 + l.val, by have := l.isLt; omega⟩) (F ⟨1024 + l.val, by have := l.isLt; omega⟩)) (F ⟨2048 + l.val, by have := l.isLt; omega⟩)) (F ⟨3072 + l.val, by have := l.isLt; omega⟩)) (F ⟨4096 + l.val, by have := l.isLt; omega⟩)) (F ⟨5120 + l.val, by have := l.isLt; omega⟩)) (F ⟨6144 + l.val, by have := l.isLt; omega⟩)) (F ⟨7168 + l.val, by have := l.isLt; omega⟩)) (F ⟨8192 + l.val, by have := l.isLt; omega⟩)) (F ⟨9216 + l.val, by have := l.isLt; omega⟩)) (F ⟨10240 + l.val, by have := l.isLt; omega⟩)) (F ⟨11264 + l.val, by have := l.isLt; omega⟩)) (F ⟨12288 + l.val, by have := l.isLt; omega⟩)) (F ⟨13312 + l.val, by have := l.isLt; omega⟩)) (F ⟨14336 + l.val, by have := l.isLt; omega⟩)) (F ⟨15360 + l.val, by have := l.isLt; omega⟩)) (F ⟨16384 + l.val, by have := l.isLt; omega⟩)) (F ⟨17408 + l.val, by have := l.isLt; omega⟩)) (F ⟨18432 + l.val, by have := l.isLt; omega⟩)) (F ⟨19456 + l.val, by have := l.isLt; omega⟩)) (F ⟨20480 + l.val, by have := l.isLt; omega⟩)) (F ⟨21504 + l.val, by have := l.isLt; omega⟩)) (F ⟨22528 + l.val, by have := l.isLt; omega⟩)) (F ⟨23552 + l.val, by have := l.isLt; omega⟩)) (F ⟨24576 + l.val, by have := l.isLt; omega⟩)) (F ⟨25600 + l.val, by have := l.isLt; omega⟩)) (F ⟨26624 + l.val, by have := l.isLt; omega⟩)) (F ⟨27648 + l.val, by have := l.isLt; omega⟩)) (F ⟨28672 + l.val, by have := l.isLt; omega⟩)) (F ⟨29696 + l.val, by have := l.isLt; omega⟩)) (F ⟨30720 + l.val, by have := l.isLt; omega⟩)) (F ⟨31744 + l.val, by have := l.isLt; omega⟩)) = Finset.univ.inf F := by
  apply le_antisymm
  · refine Finset.le_inf fun m _ => ?_
    have hr : m.val % 1024 < 1024 := Nat.mod_lt _ (by decide)
    refine (Finset.inf_le (Finset.mem_univ (⟨m.val % 1024, hr⟩ : Fin 1024))).trans ?_
    have every : ∀ (c : Nat) (hc : c < 32) (r : Fin 1024),
        (min (min (min (min (min (min (min (min (min (min (min (min (min (min (min (min (min (min (min (min (min (min (min (min (min (min (min (min (min (min (min (F ⟨0 + r.val, by have := r.isLt; omega⟩) (F ⟨1024 + r.val, by have := r.isLt; omega⟩)) (F ⟨2048 + r.val, by have := r.isLt; omega⟩)) (F ⟨3072 + r.val, by have := r.isLt; omega⟩)) (F ⟨4096 + r.val, by have := r.isLt; omega⟩)) (F ⟨5120 + r.val, by have := r.isLt; omega⟩)) (F ⟨6144 + r.val, by have := r.isLt; omega⟩)) (F ⟨7168 + r.val, by have := r.isLt; omega⟩)) (F ⟨8192 + r.val, by have := r.isLt; omega⟩)) (F ⟨9216 + r.val, by have := r.isLt; omega⟩)) (F ⟨10240 + r.val, by have := r.isLt; omega⟩)) (F ⟨11264 + r.val, by have := r.isLt; omega⟩)) (F ⟨12288 + r.val, by have := r.isLt; omega⟩)) (F ⟨13312 + r.val, by have := r.isLt; omega⟩)) (F ⟨14336 + r.val, by have := r.isLt; omega⟩)) (F ⟨15360 + r.val, by have := r.isLt; omega⟩)) (F ⟨16384 + r.val, by have := r.isLt; omega⟩)) (F ⟨17408 + r.val, by have := r.isLt; omega⟩)) (F ⟨18432 + r.val, by have := r.isLt; omega⟩)) (F ⟨19456 + r.val, by have := r.isLt; omega⟩)) (F ⟨20480 + r.val, by have := r.isLt; omega⟩)) (F ⟨21504 + r.val, by have := r.isLt; omega⟩)) (F ⟨22528 + r.val, by have := r.isLt; omega⟩)) (F ⟨23552 + r.val, by have := r.isLt; omega⟩)) (F ⟨24576 + r.val, by have := r.isLt; omega⟩)) (F ⟨25600 + r.val, by have := r.isLt; omega⟩)) (F ⟨26624 + r.val, by have := r.isLt; omega⟩)) (F ⟨27648 + r.val, by have := r.isLt; omega⟩)) (F ⟨28672 + r.val, by have := r.isLt; omega⟩)) (F ⟨29696 + r.val, by have := r.isLt; omega⟩)) (F ⟨30720 + r.val, by have := r.isLt; omega⟩)) (F ⟨31744 + r.val, by have := r.isLt; omega⟩)) ≤ F ⟨1024 * c + r.val, by have := r.isLt; omega⟩ := by
      intro c hc r
      interval_cases c <;> simp only [min_le_iff, Nat.reduceMul, le_refl, true_or, or_true]
    have hc : m.val / 1024 < 32 := by have := m.isLt; omega
    refine (every (m.val / 1024) hc ⟨m.val % 1024, hr⟩).trans (le_of_eq (congrArg F (Fin.ext ?_)))
    show 1024 * (m.val / 1024) + m.val % 1024 = m.val
    exact Nat.div_add_mod _ _
  · refine Finset.le_inf fun l _ => ?_
    simp only [le_min_iff]
    repeat' apply And.intro
    all_goals exact Finset.inf_le (Finset.mem_univ _)

/-! ## The columns and targets the chunks read are the loaded blocks -/

theorem col0_apply (x0 : Vec Ideal S2x3x512 .f32) (b : Fin 2) (s : Fin 512) (u : Fin 1) : k0_pay4 x0 (ix3 b s u) = x0 (ix3 b 0 s) := by
  simp only [k0_pay4, k0_pay2, cast_flat_colP_apply, cast_rowP_flat_apply, slice_pts_apply, shapeCast_self]
  rfl
theorem col1_apply (x0 : Vec Ideal S2x3x512 .f32) (b : Fin 2) (s : Fin 512) (u : Fin 1) : k0_pay5 x0 (ix3 b s u) = x0 (ix3 b 1 s) := by
  simp only [k0_pay5, k0_pay2, cast_flat_colP_apply, cast_rowP_flat_apply, slice_pts_apply, shapeCast_self]
  rfl
theorem col2_apply (x0 : Vec Ideal S2x3x512 .f32) (b : Fin 2) (s : Fin 512) (u : Fin 1) : k0_pay6 x0 (ix3 b s u) = x0 (ix3 b 2 s) := by
  simp only [k0_pay6, k0_pay2, cast_flat_colP_apply, cast_rowP_flat_apply, slice_pts_apply, shapeCast_self]
  rfl
theorem tgt_eq (x1 : Vec Ideal S2x3x32768 .f32) : k0_pay3 x1 = x1 := shapeCast_self _ _

/-- A chunk's squared distance over the loaded blocks: point `(b, ·, s)` of the point block against target
    `(b, ·, o + l)`. -/
theorem chunkAt_loaded (x0 : Vec Ideal S2x3x512 .f32) (x1 : Vec Ideal S2x3x32768 .f32) (b : Fin 2) (s : Fin 512) (l : Fin 1024)
    (o : Nat) (h : o + l.val < 32768) :
    chunkAt (k0_pay3 x1) (k0_pay4 x0) (k0_pay5 x0) (k0_pay6 x0) b s l o h
      = sq3 (fun d => x0 (ix3 b d s)) (fun d => x1 (ix3 b d ⟨o + l.val, h⟩)) := by
  unfold chunkAt sq3
  rw [col0_apply, col1_apply, col2_apply, tgt_eq]

/-! ## The stored block -/

set_option maxHeartbeats 1000000 in
/-- What the body leaves in the output block, at batch `b` and point `s` of the block: the distance from the block's
    point `(b, ·, s)` to the nearest of the 32768 targets `(b, ·, m)`. -/
theorem body_apply (x0 : Vec Ideal S2x3x512 .f32) (x1 : Vec Ideal S2x3x32768 .f32) (b : Fin 2) (s : Fin 512) :
    out0_2 x0 x1 (ix2 b s) = rowMin (fun d => x0 (ix3 b d s)) (fun m d => x1 (ix3 b d m)) := by
  unfold out0_2
  rw [View.canon_unit_zero zero2]
  simp only [View.ld_unit_zero (S := S2x3x512) zero3, View.ld_unit_zero (S := S2x3x32768) zero3]
  rw [pay1_apply]
  unfold rowMin clampRoot
  refine congrArg Ideal.sqrt (congrArg (fun z => max z 0) ?_)
  refine Eq.trans ?_ (inf_chunks fun m => sq3 (fun d => x0 (ix3 b d s)) (fun d => x1 (ix3 b d m)))
  refine Finset.inf_congr rfl fun l _ => ?_
  simp only [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, minimumf_apply, chunk_apply, chunkAt_loaded]

end Cert.Chamfer.K

end
-- ==== Proof.KValue.lean ====
/-
  The distance kernel's program read as a value.

  Before the region the program normalises the indices, gathers the sampled points out of the first input and
  swaps the last two axes of the gathered points and of the targets, so that the region finds the points as
  [batch, coordinate, point] and the targets as [batch, coordinate, target].  Grid point t stages points
  512 t … 512 t + 511 and all the targets, and writes the 2 × 512 distances of its points to the nearest target
  into columns 512 t … 512 t + 511 of the [2, 4096] result; the eight blocks tile the result.  After the region the
  program sums the result from 0 and divides by 8192.
-/
import proofs.«114241_j42795054137807_2_alg».proof.Proof.KBody
import Idealize.ShloMosaic.Lib.Pipeline.Value
import Idealize.ShloMosaic.Lib.ValueLayout
import Idealize.ShloMosaic.Lib.StableHlo.Run

set_option maxRecDepth 16384

noncomputable section

namespace Cert.Chamfer.K

open Cert.KernelIdeal Cert.KernelIdeal.Gen Idealize.ShloMosaic Idealize.ShloMosaic.TcCoe Idealize.SL.Sem
open Idealize.ShloMosaic.ValueIdx Cert.Chamfer
open Idealize.ShloMosaic.Pipeline (Dat)

/-- The gathered sampled points: the first input read at the normalised indices (a negative index counts from the end). -/
def gatheredPts (x0 : FVec Ideal S2x8192x3 .f32) (x2 : IVec S4096 32) : FVec Ideal S2x4096x3 .f32 :=
  Host.gather gather_S2x8192x3_S4096x1_S2x4096x3_02_1_n_n_1_1_213 x0
    (broadcastInDim S4096x1 ![0] bcast_S4096_S4096x1_0
      (select (cmpi .slt x2 (broadcastInDim S4096 ![] bcast_S_S4096 (constantI S_ 32 0#32)))
        (addi x2 (broadcastInDim S4096 ![] bcast_S_S4096 (constantI S_ 32 8192#32))) x2))

variable (m : (ℓ : Loc nD τ sig) → Buf (Elt Ideal) ℓ) (ρ : Dev nD → PrngReg)

/-! ## The arrays the region finds -/

/-- The point array the region finds: the gathered points with the last two axes swapped. -/
theorem V_pts (c : Dev nD) :
    (V m c main_v7 : S2x3x4096.Idx → EReal)
      = transpose S2x3x4096 [0, 2, 1]
          (gatheredPts (m ((c.tc : Thread nD τ).loc main_arg0)) (m ((c.tc : Thread nD τ).loc main_arg2)))
          transposes_S2x4096x3_S2x3x4096_0_2_1 := by
  show StableHlo.after hostOps0 (fun b => m (c, b)) (Proc.devRef .tc main_v7) = _
  after_results
  rfl

/-- The target array the region finds: the second input with the last two axes swapped. -/
theorem V_tgt (c : Dev nD) :
    (V m c main_v8 : S2x3x32768.Idx → EReal)
      = transpose S2x3x32768 [0, 2, 1] (m ((c.tc : Thread nD τ).loc main_arg1)) transposes_S2x32768x3_S2x3x32768_0_2_1 := by
  show StableHlo.after hostOps0 (fun b => m (c, b)) (Proc.devRef .tc main_v8) = _
  after_results

/-! ## The blocks -/

/-- The index maps over the grid: point t stages point block t and the whole target array, and writes result block t. -/
theorem idx_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = t.val :=
  (by decide +kernel : ∀ t : Fin grid0.N, _)

/-- The grid has eight points. -/
theorem lt_eight (t : Fin cfg0.N) : t.val < 8 := by
  have hN : cfg0.N = 8 := N_0
  have := t.isLt
  omega

/-- The body's result at (b, s), for a point block that is block k of a point array P with its last two axes swapped and a
    target block that is a target array T with its last two axes swapped: the nearest-target distance of point 512 k + s. -/
theorem out_apply (x0 : Vec Ideal S2x3x512 .f32) (x1 : Vec Ideal S2x3x32768 .f32) (P : SPts.Idx → EReal) (T : STgt.Idx → EReal)
    (k : Nat) (hk : k < 8)
    (hx0 : ∀ (b : Fin 2) (d : Fin 3) (s : Fin 512), x0 (ix3 b d s) = P (ix3 b (⟨512 * k + s.val, by omega⟩ : Fin 4096) d))
    (hx1 : ∀ (b : Fin 2) (d : Fin 3) (mm : Fin 32768), x1 (ix3 b d mm) = T (ix3 b mm d))
    (b : Fin 2) (s : Fin 512) :
    out0_2 x0 x1 (ix2 b s) = nearest P T (ix2 b (⟨512 * k + s.val, by omega⟩ : Fin 4096)) := by
  rw [body_apply, nearest_ix2]
  unfold nearestAt
  congr 1
  · funext d; exact hx0 b d s
  · funext mm d; exact hx1 b d mm

/-- Point block t at (b, d, s) is coordinate d of gathered point 512 t + s of batch b. -/
theorem pts_blk_apply (c : Dev nD) (t : Fin cfg0.N) (b : Fin 2) (d : Fin 3) (s : Fin 512) :
    (iblk m c 0 t : Vec Ideal S2x3x512 .f32) (ix3 b d s)
      = gatheredPts (m ((c.tc : Thread nD τ).loc main_arg0)) (m ((c.tc : Thread nD τ).loc main_arg2))
          (ix3 b (⟨512 * t.val + s.val, by have := lt_eight t; omega⟩ : Fin 4096) d) := by
  obtain ⟨e0, e1, e2, -⟩ := idx_facts t
  have ht := lt_eight t
  unfold iblk
  rw [View.read_apply]
  show V m c main_v7 (((cfg0.win 0).blk t).view.emb (ix3 b d s)) = _
  have he : ((cfg0.win 0).blk t).view.emb (ix3 b d s)
      = (ix3 b d (⟨512 * t.val + s.val, by omega⟩ : Fin 4096) : S2x3x4096.Idx) := by
    funext a; apply Fin.ext
    match a with
    | ⟨0, _⟩ => show win0_0.index t (0 : Fin 3) * 2 + 1 * b.val = b.val; omega
    | ⟨1, _⟩ => show win0_0.index t (1 : Fin 3) * 3 + 1 * d.val = d.val; omega
    | ⟨2, _⟩ => show win0_0.index t (2 : Fin 3) * 512 + 1 * s.val = 512 * t.val + s.val; omega
  rw [he, V_pts]
  exact transpose_ix3_021_apply _ _ b d _

/-- The target block at (b, d, mm) is coordinate d of target mm of batch b. -/
theorem tgt_blk_apply (c : Dev nD) (t : Fin cfg0.N) (b : Fin 2) (d : Fin 3) (mm : Fin 32768) :
    (iblk m c 1 t : Vec Ideal S2x3x32768 .f32) (ix3 b d mm)
      = (m ((c.tc : Thread nD τ).loc main_arg1) : S2x32768x3.Idx → EReal) (ix3 b mm d) := by
  obtain ⟨-, -, -, e0, e1, e2, -⟩ := idx_facts t
  unfold iblk
  rw [View.read_apply]
  show V m c main_v8 (((cfg0.win 1).blk t).view.emb (ix3 b d mm)) = _
  have he : ((cfg0.win 1).blk t).view.emb (ix3 b d mm) = (ix3 b d mm : S2x3x32768.Idx) := by
    funext a; apply Fin.ext
    match a with
    | ⟨0, _⟩ => show win0_1.index t (0 : Fin 3) * 2 + 1 * b.val = b.val; omega
    | ⟨1, _⟩ => show win0_1.index t (1 : Fin 3) * 3 + 1 * d.val = d.val; omega
    | ⟨2, _⟩ => show win0_1.index t (2 : Fin 3) * 32768 + 1 * mm.val = mm.val; omega
  rw [he, V_tgt]
  exact transpose_ix3_021_apply _ _ b d mm

/-- Result block t at (b, s) sits at (b, 512 t + s) of the result array. -/
theorem out_blk_emb (t : Fin cfg0.N) (b : Fin 2) (s : Fin 512) :
    ((cfg0.win 2).blk t).view.emb (ix2 b s)
      = (ix2 b (⟨512 * t.val + s.val, by have := lt_eight t; omega⟩ : Fin 4096) : S2x4096.Idx) := by
  obtain ⟨-, -, -, -, -, -, e0, e1⟩ := idx_facts t
  funext a; apply Fin.ext
  match a with
  | ⟨0, _⟩ => show win0_2.index t (0 : Fin 2) * 2 + 1 * b.val = b.val; omega
  | ⟨1, _⟩ => show win0_2.index t (1 : Fin 2) * 512 + 1 * s.val = 512 * t.val + s.val; omega

/-- A result array read through point t's block, at (b, s): the array at (b, 512 t + s). -/
theorem read_out_blk (G : S2x4096.Idx → EReal) (t : Fin cfg0.N) (b : Fin 2) (s : Fin 512) :
    ((cfg0.win 2).blk t).view.read (Elt Ideal) G (ix2 b s)
      = G (ix2 b (⟨512 * t.val + s.val, by have := lt_eight t; omega⟩ : Fin 4096)) := by
  rw [View.read_apply]
  show G (((cfg0.win 2).blk t).view.emb (ix2 b s)) = _
  rw [out_blk_emb]

/-- What point t writes back is block t of the nearest-target distances of the gathered points. -/
theorem flushed_eq (c : Dev nD) (t : Fin cfg0.N) :
    (dats m 0 c).flushed 2 t = ((cfg0.win 2).blk t).view.read (Elt Ideal)
      (nearest (gatheredPts (m ((c.tc : Thread nD τ).loc main_arg0)) (m ((c.tc : Thread nD τ).loc main_arg2)))
        (m ((c.tc : Thread nD τ).loc main_arg1))) := by
  show (cfg0.win 2).cut (grid0.coords t) ((dats m 0 c).after 2 t) = _
  rw [after0_2]
  funext j
  obtain ⟨b, s, rfl⟩ : ∃ (b : Fin 2) (s : Fin 512), j = ix2 b s := ⟨j 0, j 1, eq_ix2 j⟩
  have hL : (cfg0.win 2).xinj (grid0.coords t) (ix2 b s) = (ix2 b s : S2x512.Idx) :=
    funext fun a => Fin.ext (by match a with | ⟨0, _⟩ => rfl | ⟨1, _⟩ => rfl)
  refine (congrArg (out0_2 (iblk m c 0 t) (iblk m c 1 t)) hL).trans ?_
  refine (out_apply (iblk m c 0 t) (iblk m c 1 t)
    (gatheredPts (m ((c.tc : Thread nD τ).loc main_arg0)) (m ((c.tc : Thread nD τ).loc main_arg2)))
    (m ((c.tc : Thread nD τ).loc main_arg1)) t.val (lt_eight t) (pts_blk_apply m c t) (tgt_blk_apply m c t) b s).trans ?_
  exact (read_out_blk _ t b s).symm

/-! ## From the blocks to the array -/

/-- An index of the result array is in point t's block iff each coordinate is in the block's range on its axis. -/
theorem mem_blk (t : Fin cfg0.N) (i : S2x4096.Idx) :
    i ∈ ((cfg0.win 2).blk t).view.set ↔ ∀ a : Fin 2, win0_2.index t a * S2x512.size a ≤ (i a).val
      ∧ (i a).val < win0_2.index t a * S2x512.size a + S2x512.size a := by
  show i ∈ ((View.whole main_v9).slice (win0_2.rect t)).set ↔ _
  rw [View.set_slice_whole, Rect.mem_set_unit]
  exact Iff.rfl

/-- Every index of the result array lies in the block of the point its column falls in: column j in block j / 512. -/
theorem cover (i : S2x4096.Idx) :
    ∃ t : Fin cfg0.N, (cfg0.win 2).flush t = true ∧ i ∈ ((cfg0.win 2).blk t).view.set := by
  have hN : cfg0.N = 8 := N_0
  have h0 : (i 0).val < 2 := (i 0).isLt
  have h1 : (i 1).val < 4096 := (i 1).isLt
  obtain ⟨t, ht⟩ : ∃ t : Fin cfg0.N, t.val = (i 1).val / 512 := ⟨⟨(i 1).val / 512, by omega⟩, rfl⟩
  refine ⟨t, flush0_2 t, ?_⟩
  rw [mem_blk]
  obtain ⟨-, -, -, -, -, -, e0, e1⟩ := idx_facts t
  intro a
  match a with
  | ⟨0, _⟩ =>
    show win0_2.index t (0 : Fin 2) * 2 ≤ (i 0).val ∧ (i 0).val < win0_2.index t (0 : Fin 2) * 2 + 2
    omega
  | ⟨1, _⟩ =>
    show win0_2.index t (1 : Fin 2) * 512 ≤ (i 1).val ∧ (i 1).val < win0_2.index t (1 : Fin 2) * 512 + 512
    omega

/-- After the region the result array holds the nearest-target distances of the gathered points. -/
theorem final (c : Dev nD) :
    (dats m 0 c).arrAt 2 cfg0.N
      = nearest (gatheredPts (m ((c.tc : Thread nD τ).loc main_arg0)) (m ((c.tc : Thread nD τ).loc main_arg2)))
          (m ((c.tc : Thread nD τ).loc main_arg1)) :=
  (dats m 0 c).arrAt_eq_of_cover 2 _ (fun t _ => flushed_eq m c t) cover

/-! ## The operations after the region, and the run -/

/-- After the program the result buffer holds the mean of the nearest-target distances. -/
theorem tail_value (c : Dev nD) :
    Pipeline.afterTail₀ cfgs (dats m) 0 (V0 m) [hostOps1] c main_v11
      = meanTail (nearest (gatheredPts (m ((c.tc : Thread nD τ).loc main_arg0)) (m ((c.tc : Thread nD τ).loc main_arg2)))
          (m ((c.tc : Thread nD τ).loc main_arg1))) reducesTo_S2x4096_S_d0_1 h_S_ := by
  unfold Pipeline.afterTail₀
  show StableHlo.after hostOps1 _ (Proc.devRef .tc main_v11) = _
  after_results
  have hw : Pipeline.withArrays (cfgs 0).spec c (V0 m c) (fun w => (dats m 0 c).arrAt w (cfgs 0).N) (Proc.devRef .tc main_v9)
      = nearest (gatheredPts (m ((c.tc : Thread nD τ).loc main_arg0)) (m ((c.tc : Thread nD τ).loc main_arg2)))
          (m ((c.tc : Thread nD τ).loc main_arg1)) :=
    (Pipeline.withArrays_arr spec0 launch0.win.arr_inj c _ _ 2).trans (final m c)
  unfold meanTail
  rw [hw]

/-- At the compiled mesh, from any memory with zero counters: every weakly fair execution of the program terminates with
    the result buffer at the mean of the nearest-target distances of the gathered points and the three arguments as launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11)
          = Cert.Chamfer.meanTail (Cert.Chamfer.nearest (gatheredPts (m ((c.tc : Thread nD τ).loc main_arg0)) (m ((c.tc : Thread nD τ).loc main_arg2))) (m ((c.tc : Thread nD τ).loc main_arg1))) reducesTo_S2x4096_S_d0_1 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v11 (Pipeline.mem_restRefs_of main_v11 (by decide) (by decide))).trans (tail_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.Chamfer.K

end
-- ==== Proof.RefSide.lean ====
/-
  The reference program read down to the shared specification.

  For a batch b, a sampled point s and a target m the reference forms
      (0 + Σ_k P(b,s,k)²) + (0 + Σ_k T(b,m,k)²) − 2 · Σ_k P(b,s,k) · T(b,m,k),
  clamps it below at 0, takes the root, and then the minimum over m starting from +∞.  P is the gathered point array:
  each of its entries is an entry of the first input.  When every entry is a real number the expansion is the sum
  of the three squared coordinate differences, and since x ↦ √(max x 0) is monotone and keeps +∞ it commutes with
  the minimum of a finite family.
-/
import proofs.«114241_j42795054137807_2_alg».proof.Proof.Spec
import proofs.«114241_j42795054137807_2_alg».proof.Proof.Gen.ReferenceIdeal.Read
import proofs.«114241_j42795054137807_2_alg».proof.Proof.LibRootMin
import Idealize.ShloMosaic.PureOps.Ideal.Laws
import Idealize.ShloMosaic.PureOps.Reduce

noncomputable section

namespace Cert.Chamfer.Ref

open Idealize.ShloMosaic Idealize.ShloMosaic.ValueIdx Cert.ReferenceIdeal Cert.ReferenceIdeal.Gen Cert.ReferenceIdeal.Read

/-! ## The clamped root -/

/-- The root is monotone on the extended reals. -/
theorem sqrt_mono : Monotone Ideal.sqrt := Cert.Lib.RootMin.sqrt_mono

/-- The clamped root is monotone. -/
theorem clampRoot_mono : Monotone clampRoot := Cert.Lib.RootMin.sqrtClamp_mono

/-- The clamped root keeps +∞. -/
theorem clampRoot_top : clampRoot ⊤ = ⊤ := Cert.Lib.RootMin.sqrtClamp_top

/-- The clamped root of the minimum of a finite family is the minimum of the clamped roots. -/
theorem clampRoot_inf {ι : Type} (s : Finset ι) (f : ι → EReal) :
    clampRoot (s.inf f) = s.inf fun i => clampRoot (f i) := Cert.Lib.RootMin.sqrtClamp_inf s f

/-- A fold of the minimum from +∞ over a finite family is the family's infimum. -/
theorem fold_min_eq_inf {ι : Type} (s : Finset ι) (g : ι → EReal) :
    s.fold (FloatOps.minimumf (F := Ideal) (φ := .f32)) (⊤ : EReal) g = s.inf g := Cert.Lib.RootMin.fold_min_top_eq_inf s g

/-! ## The literals -/

/-- The word 0x7F800000 is +∞. -/
theorem ofBits_inf_f32 : Ideal.ofBits .f32 0x7F800000#32 = (⊤ : EReal) := Cert.Lib.RootMin.ofBits_inf_f32

/-- The word 0x40000000 is the real number 2. -/
theorem ofBits_two_f32 : Ideal.ofBits .f32 0x40000000#32 = ((2 : ℝ) : EReal) := by
  simp [Ideal.ofBits, Ideal.ieee]
  norm_cast
  norm_num

/-! ## The expansion of the squared distance -/

/-- Over real coordinates, |p|² + |t|² − 2 p·t is the sum of the squared coordinate differences. -/
theorem expand_eq_sq3 (p t : Fin 3 → EReal) (hp : ∀ d, ∃ r : ℝ, p d = (r : EReal)) (ht : ∀ d, ∃ r : ℝ, t d = (r : EReal)) :
    ((0 + ∑ k : Fin 3, p k * p k) + (0 + ∑ k : Fin 3, t k * t k)) - ((2 : ℝ) : EReal) * ∑ k : Fin 3, p k * t k
      = sq3 p t := by
  choose pr hpr using hp
  choose tr htr using ht
  simp only [Fin.sum_univ_three, sq3, hpr, htr, zero_add]
  norm_cast
  ring

/-! ## The reference's stages at an index -/

section Stages

variable (x0 : (⟨Cert.ReferenceIdeal.S2x8192x3, .f32⟩ : BufTy).Contents (Elt Ideal))
  (x1 : (⟨Cert.ReferenceIdeal.S2x32768x3, .f32⟩ : BufTy).Contents (Elt Ideal))
  (x2 : (⟨Cert.ReferenceIdeal.S4096, .i32⟩ : BufTy).Contents (Elt Ideal))

/-- Every entry of the gathered point array is an entry of the first input, so it is real when they all are. -/
theorem gathered_real (h0 : ∀ i, ∃ r : ℝ, x0 i = (r : EReal)) (i : S2x4096x3.Idx) :
    ∃ r : ℝ, val_main_v6 (F := Ideal) x0 x2 i = (r : EReal) := by
  unfold val_main_v6 Host.gather
  exact h0 _

/-- The squared norm of sampled point (b, s), broadcast along the targets. -/
theorem normP_apply (b : Fin 2) (s : Fin 4096) (m : Fin 32768) :
    val_main_v14 (F := Ideal) x0 x2 (ix3 b s m)
      = 0 + ∑ k : Fin 3, val_main_v6 (F := Ideal) x0 x2 (ix3 b s k) * val_main_v6 (F := Ideal) x0 x2 (ix3 b s k) := by
  rw [val_main_v14_apply, val_main_v12_apply, val_main_v8_apply]
  refine congrArg₂ (· + ·) Ideal.ofBits_zero_f32 (Finset.sum_congr rfl fun k _ => ?_)
  have e : idx_main_v8 (idx_main_v12 (idx_main_v14 (ix3 b s m))) k = ix3 b s k :=
    funext fun a => Fin.ext (by match a with | ⟨0, _⟩ => rfl | ⟨1, _⟩ => rfl | ⟨2, _⟩ => rfl)
  rw [e]
  rfl

/-- The squared norm of target (b, m), broadcast along the sampled points. -/
theorem normT_apply (b : Fin 2) (s : Fin 4096) (m : Fin 32768) :
    val_main_v15 (F := Ideal) x1 (ix3 b s m) = 0 + ∑ k : Fin 3, x1 (ix3 b m k) * x1 (ix3 b m k) := by
  rw [val_main_v15_apply, val_main_v13_apply, val_main_v10_apply]
  refine congrArg₂ (· + ·) Ideal.ofBits_zero_f32 (Finset.sum_congr rfl fun k _ => ?_)
  have e : idx_main_v10 (idx_main_v13 (idx_main_v15 (ix3 b s m))) k = ix3 b m k :=
    funext fun a => Fin.ext (by match a with | ⟨0, _⟩ => rfl | ⟨1, _⟩ => rfl | ⟨2, _⟩ => rfl)
  rw [e]
  rfl

/-- The inner product of sampled point (b, s) and target (b, m). -/
theorem dot_apply (b : Fin 2) (s : Fin 4096) (m : Fin 32768) :
    val_main_v11 (F := Ideal) x0 x1 x2 (ix3 b s m)
      = ∑ k : Fin 3, val_main_v6 (F := Ideal) x0 x2 (ix3 b s k) * x1 (ix3 b m k) := by
  rw [val_main_v11_apply]
  refine Finset.sum_congr rfl fun k _ => ?_
  have el : lidx_main_v11 (ix3 b s m) k = ix3 b s k :=
    funext fun a => Fin.ext (by match a with | ⟨0, _⟩ => rfl | ⟨1, _⟩ => rfl | ⟨2, _⟩ => rfl)
  have er : ridx_main_v11 (ix3 b s m) k = ix3 b m k :=
    funext fun a => Fin.ext (by match a with | ⟨0, _⟩ => rfl | ⟨1, _⟩ => rfl | ⟨2, _⟩ => rfl)
  rw [el, er]

/-- The reference's distance of sampled point (b, s) to target (b, m): the clamped root of the squared distance. -/
theorem dist_apply (h0 : ∀ i, ∃ r : ℝ, x0 i = (r : EReal)) (h1 : ∀ i, ∃ r : ℝ, x1 i = (r : EReal))
    (b : Fin 2) (s : Fin 4096) (m : Fin 32768) :
    val_main_v22 (F := Ideal) x0 x1 x2 (ix3 b s m)
      = clampRoot (sq3 (fun d => val_main_v6 (F := Ideal) x0 x2 (ix3 b s d)) (fun d => x1 (ix3 b m d))) := by
  rw [val_main_v22_apply, val_main_v21_apply, val_main_v19_apply, val_main_v16_apply, val_main_v18_apply,
    val_main_v17_apply, val_main_v20_apply, normP_apply, normT_apply, dot_apply]
  have h2 : val_main_cst_2 (F := Ideal) (idx_main_v17 (ix3 b s m)) = ((2 : ℝ) : EReal) := ofBits_two_f32
  have hz : val_main_cst_3 (F := Ideal) (idx_main_v20 (ix3 b s m)) = 0 := Ideal.ofBits_zero_f32
  rw [h2, hz]
  have key := expand_eq_sq3 (fun d => val_main_v6 (F := Ideal) x0 x2 (ix3 b s d)) (fun d => x1 (ix3 b m d))
    (fun d => gathered_real x0 x2 h0 _) (fun d => h1 _)
  exact congrArg clampRoot key

end Stages

/-! ## The minimum over the targets -/

/-- The reference's nearest-target distances are the specification's, over the gathered points and the targets. -/
theorem ref_nearest
    (x0 : (⟨Cert.ReferenceIdeal.S2x8192x3, .f32⟩ : BufTy).Contents (Elt Ideal))
    (x1 : (⟨Cert.ReferenceIdeal.S2x32768x3, .f32⟩ : BufTy).Contents (Elt Ideal))
    (x2 : (⟨Cert.ReferenceIdeal.S4096, .i32⟩ : BufTy).Contents (Elt Ideal))
    (h0 : ∀ i, ∃ r : ℝ, x0 i = (r : EReal)) (h1 : ∀ i, ∃ r : ℝ, x1 i = (r : EReal)) :
    Cert.ReferenceIdeal.Read.val_main_v23 (F := Ideal) x0 x1 x2
      = Cert.Chamfer.nearest (Cert.ReferenceIdeal.Read.val_main_v6 (F := Ideal) x0 x2) x1 := by
  funext j
  obtain ⟨b, s, rfl⟩ : ∃ (b : Fin 2) (s : Fin 4096), j = ix2 b s := ⟨j 0, j 1, eq_ix2 j⟩
  rw [nearest_ix2]
  have hred : S2x4096x32768.Reduces [2] S2x4096 := by decide
  unfold val_main_v23
  refine (Host.reduce_eq_fold_single (FloatOps.minimumf (F := Ideal) (φ := .f32)) (val_main_v22 (F := Ideal) x0 x1 x2)
    (val_main_cst_4 (F := Ideal)) reducesTo_S2x4096x32768_S2x4096_d2 hred h_S_ (ix2 b s)).trans ?_
  have hinit : val_main_cst_4 (F := Ideal) (Shape.Idx.first h_S_) = (⊤ : EReal) := ofBits_inf_f32
  rw [hinit]
  refine (Finset.fold_congr (g := fun m : Fin 32768 =>
      clampRoot (sq3 (fun d => val_main_v6 (F := Ideal) x0 x2 (ix3 b s d)) (fun d => x1 (ix3 b m d)))) fun m _ => ?_).trans ?_
  · have e : hred.lift (ix2 b s) m = ix3 b s m :=
      funext fun a => Fin.ext (by match a with | ⟨0, _⟩ => rfl | ⟨1, _⟩ => rfl | ⟨2, _⟩ => rfl)
    show val_main_v22 (F := Ideal) x0 x1 x2 (hred.lift (ix2 b s) m) = _
    rw [e]
    exact dist_apply x0 x1 x2 h0 h1 b s m
  · exact (fold_min_eq_inf _ _).trans (clampRoot_inf _ _).symm

end Cert.Chamfer.Ref

end
-- ==== Proof.Finite.lean ====
/-
  From the printed finiteness predicate to "every entry is a real number".

  The predicate takes the absolute value of every entry of the two float arrays, compares it with +∞ by "less than",
  takes the conjunction of all the comparisons of each array, and joins the two conjunctions.  If the result is
  true, every entry x satisfies max x (-x) < +∞ on the extended reals, which excludes both infinities (the
  absolute value of -∞ is +∞ too): x is a real number.
-/
import proofs.«114241_j42795054137807_2_alg».proof.Pre_finite_inputs
import Idealize.ShloMosaic.Lib.ReduceAll
import Idealize.ShloMosaic.Lib.ValueIdx
import Idealize.ShloMosaic.PureOps.Ideal
import Idealize.ShloMosaic.PureOps.Ideal.Laws

namespace Cert.Chamfer.Fin

open Idealize.ShloMosaic Idealize.ShloMosaic.ValueIdx

/-- The word 0x7F800000 is +∞. -/
theorem ofBits_inf_f32 : Ideal.ofBits .f32 0x7F800000#32 = (⊤ : EReal) := by
  simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | top => exact absurd h (by simp [Ideal.cmp])
  | coe r => exact ⟨r, rfl⟩

/-- The scalar shape has one index. -/
instance : Subsingleton Cert.Pre_finite_inputs.S_.Idx := ⟨fun a b => funext fun d => d.elim0⟩

/-- If the printed finiteness predicate holds, every entry of both float arrays is a real number. -/
theorem finite_of_fn [Cert.Pre_finite_inputs.Facts]
    (x0 : FVec Ideal Cert.Pre_finite_inputs.S2x8192x3 .f32) (x1 : FVec Ideal Cert.Pre_finite_inputs.S2x32768x3 .f32)
    (x2 : IVec Cert.Pre_finite_inputs.S4096 32)
    (h : Cert.Pre_finite_inputs.fn (F := Ideal) x0 x1 x2 = fun _ => 1#1) :
    (∀ i, ∃ r : ℝ, x0 i = (r : EReal)) ∧ (∀ i, ∃ r : ℝ, x1 i = (r : EReal)) := by
  have h1 := congrFun h ValueIdx.ix0
  dsimp only [Cert.Pre_finite_inputs.fn] at h1
  obtain ⟨ha, hb⟩ := IntOp.andi_eq_one.1 h1
  refine ⟨fun i => ?_, fun i => ?_⟩
  · exact real_of_abs_lt_inf (x0 i) (Host.reduce_andi_all _ _ _ _ _ ha i)
  · exact real_of_abs_lt_inf (x1 i) (Host.reduce_andi_all _ _ _ _ _ hb i)

end Cert.Chamfer.Fin
-- ==== Proof.lean ====
/-
  The partial chamfer distance: the mean, over 2 batches and 4096 sampled points, of the distance from each sampled
  point to the nearest of 32768 target points in three dimensions.

  Both programs gather the sampled points out of the first input with the same operations, so the gathered array is
  one term on both sides, and each of its entries is an entry of the input.  The kernel forms the squared distance as
  the sum of the three squared coordinate differences, takes the minimum over the targets and then the root of the
  clamped minimum.  The reference forms |p|² + |t|² − 2 p·t, clamps it, takes the root and then the minimum over the
  targets.  On real numbers the two squared distances agree; this is where the precondition (every float input is
  finite) is used, the extended reals having no such law at the infinities.  The root of the clamped value is monotone
  and keeps +∞, so it commutes with the minimum of a finite family.  Both programs then take the same mean.

  The kernel's frames are the generated ones, the reference's frame is its generated run with the result dropped, and the
  idealization rewrote nothing.
-/
import proofs.«114241_j42795054137807_2_alg».proof.Defs
import proofs.«114241_j42795054137807_2_alg».proof.Proof.Gen.Kernel
import proofs.«114241_j42795054137807_2_alg».proof.Proof.Gen.Kernel.Skeleton
import proofs.«114241_j42795054137807_2_alg».proof.Proof.Gen.Kernel.Launch
import proofs.«114241_j42795054137807_2_alg».proof.Proof.Gen.Kernel.Points
import proofs.«114241_j42795054137807_2_alg».proof.Proof.Gen.Kernel.Frame
import proofs.«114241_j42795054137807_2_alg».proof.Proof.Gen.KernelIdeal
import proofs.«114241_j42795054137807_2_alg».proof.Proof.Gen.KernelIdeal.Skeleton
import proofs.«114241_j42795054137807_2_alg».proof.Proof.Gen.KernelIdeal.Launch
import proofs.«114241_j42795054137807_2_alg».proof.Proof.Gen.KernelIdeal.Points
import proofs.«114241_j42795054137807_2_alg».proof.Proof.Gen.KernelIdeal.Frame
import proofs.«114241_j42795054137807_2_alg».proof.Proof.Gen.ReferenceIdeal
import proofs.«114241_j42795054137807_2_alg».proof.Proof.Gen.ReferenceIdeal.Run
import proofs.«114241_j42795054137807_2_alg».proof.Proof.Gen.ReferenceIdeal.Read
import proofs.«114241_j42795054137807_2_alg».proof.Proof.Gen.Pre_finite_inputs
import proofs.«114241_j42795054137807_2_alg».proof.Proof.KValue
import proofs.«114241_j42795054137807_2_alg».proof.Proof.RefSide
import proofs.«114241_j42795054137807_2_alg».proof.Proof.Finite
import Idealize.ShloMosaic.Adequacy
import Idealize.ShloMosaic.Init

noncomputable section

namespace Cert.Proof

open Idealize.ShloMosaic Idealize.SL.Sem Cert.Chamfer

/-! ## The reference's run, at the specification -/

/-- The reference's last two operations are the mean of its nearest-target distances. -/
theorem ref_tail (x0 : (⟨Cert.ReferenceIdeal.S2x8192x3, .f32⟩ : BufTy).Contents (Elt Ideal))
    (x1 : (⟨Cert.ReferenceIdeal.S2x32768x3, .f32⟩ : BufTy).Contents (Elt Ideal))
    (x2 : (⟨Cert.ReferenceIdeal.S4096, .i32⟩ : BufTy).Contents (Elt Ideal)) :
    Cert.ReferenceIdeal.Read.val_main_v25 (F := Ideal) x0 x1 x2
      = meanTail (Cert.ReferenceIdeal.Read.val_main_v23 (F := Ideal) x0 x1 x2)
          Cert.ReferenceIdeal.Facts₀.reducesTo_S2x4096_S_d0_1 Cert.ReferenceIdeal.Facts₀.h_S_ := rfl

/-- The reference gathers the sampled points with the kernel program's operations. -/
theorem gathered_eq (x0 : (⟨Cert.ReferenceIdeal.S2x8192x3, .f32⟩ : BufTy).Contents (Elt Ideal))
    (x2 : (⟨Cert.ReferenceIdeal.S4096, .i32⟩ : BufTy).Contents (Elt Ideal)) :
    Cert.ReferenceIdeal.Read.val_main_v6 (F := Ideal) x0 x2 = Cert.Chamfer.K.gatheredPts x0 x2 := rfl

/-- The mean does not depend on which program states its shape facts. -/
theorem meanTail_facts (X : FVec Ideal SOut .f32) :
    meanTail X Cert.ReferenceIdeal.Facts₀.reducesTo_S2x4096_S_d0_1 Cert.ReferenceIdeal.Facts₀.h_S_
      = meanTail X Cert.KernelIdeal.Facts₀.reducesTo_S2x4096_S_d0_1 Cert.KernelIdeal.Facts₀.h_S_ := rfl

/-- The reference's run from a memory whose float arguments are real: the result is the mean of the nearest-target
    distances of the gathered points, the arguments are unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg)
    (hfin : ∀ c : Dev Cert.ReferenceIdeal.nD,
      (∀ i, ∃ r : ℝ, m' ((c.tc : Thread Cert.ReferenceIdeal.nD Cert.ReferenceIdeal.τ).loc Cert.ReferenceIdeal.main_arg0) i = (r : EReal)) ∧ (∀ i, ∃ r : ℝ, m' ((c.tc : Thread Cert.ReferenceIdeal.nD Cert.ReferenceIdeal.τ).loc Cert.ReferenceIdeal.main_arg1) i = (r : EReal))) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v25)
          = meanTail (nearest (Cert.ReferenceIdeal.Read.val_main_v6 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)))
              (m' ((c.tc : Thread Cert.ReferenceIdeal.nD Cert.ReferenceIdeal.τ).loc Cert.ReferenceIdeal.main_arg1))) Cert.ReferenceIdeal.Facts₀.reducesTo_S2x4096_S_d0_1 Cert.ReferenceIdeal.Facts₀.h_S_
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  refine (θ_run Cert.ReferenceIdeal.defs _ _).mono (fun _ h c => ⟨?_, (h c).2⟩) (Cert.ReferenceIdeal.Value.run (F := Ideal) m' ρ')
  rw [(h c).1, Cert.ReferenceIdeal.Read.val_main_v25_eq, ref_tail, Cert.Chamfer.Ref.ref_nearest _ _ _ (hfin c).1 (hfin c).2]

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, with finite float arguments, both idealized programs end with the mean of
    the nearest-target distances of the same gathered points to the same targets. -/
theorem algebraic : Cert.algebraic_KernelIdeal_ReferenceIdeal := by
  intro m ρ m' ρ' hpre hagree
  refine ⟨_, Cert.Chamfer.K.run_value m ρ, ?_⟩
  have hfin : ∀ c : Dev Cert.ReferenceIdeal.nD,
      (∀ i, ∃ r : ℝ, m' ((c.tc : Thread Cert.ReferenceIdeal.nD Cert.ReferenceIdeal.τ).loc Cert.ReferenceIdeal.main_arg0) i = (r : EReal)) ∧ (∀ i, ∃ r : ℝ, m' ((c.tc : Thread Cert.ReferenceIdeal.nD Cert.ReferenceIdeal.τ).loc Cert.ReferenceIdeal.main_arg1) i = (r : EReal)) := by
    intro c
    rw [(hagree c).1, (hagree c).2.1]
    exact Cert.Chamfer.Fin.finite_of_fn _ _ _ (hpre c)
  refine (θ_run Cert.ReferenceIdeal.defs _ _).mono (fun _ h c => ⟨(h c).1.trans ?_, (h c).2⟩) (ref_run m' ρ' hfin)
  rw [(hagree c).1, (hagree c).2.1, (hagree c).2.2, gathered_eq, meanTail_facts]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
